-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S64x2 : Shape := ⟨2, ![64, 2]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S64x2 : S_.BroadcastsInDim S64x2 (![] : Fin 0 → Fin S64x2.rank)
  reducesTo_S64x2_S_d0_1 : S64x2.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S1x64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64x2 .f32) (main_arg5 : FVec F S64 .f32) (main_arg6 : FVec F S64x64 .f32) (main_arg7 : FVec F S64 .f32) (main_arg8 : FVec F S1x64 .f32) (main_arg9 : FVec F S1 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S1000000 .f32) (main_arg1 : FVec F S1000000 .f32) (main_arg2 : FVec F S1000000 .f32) (main_arg3 : FVec F S1000000 .f32) (main_arg4 : FVec F S64x2 .f32) (main_arg5 : FVec F S64 .f32) (main_arg6 : FVec F S64x64 .f32) (main_arg7 : FVec F S64 .f32) (main_arg8 : FVec F S1x64 .f32) (main_arg9 : FVec F S1 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg6 main_arg7 main_arg8 main_arg9 main_v13 main_v16
-- ==== Kernel.lean ====
abbrev S1000000 : Shape := ⟨1, ![1000000]⟩
abbrev S64x2 : Shape := ⟨2, ![64, 2]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1000000 : Shape := ⟨2, ![1, 1000000]⟩
abbrev S_ : Shape := ⟨0, ![]⟩
abbrev S1x1015808 : Shape := ⟨2, ![1, 1015808]⟩
abbrev S64x1 : Shape := ⟨2, ![64, 1]⟩
abbrev S1x1 : Shape := ⟨2, ![1, 1]⟩
abbrev S1x32768 : Shape := ⟨2, ![1, 32768]⟩
abbrev S64x32768 : Shape := ⟨2, ![64, 32768]⟩
abbrev S32768 : Shape := ⟨1, ![32768]⟩

abbrev nBuf : Space → Nat
  | .hbm => 49
  | .vmem => 23
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S64x2, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1000000, .f32⟩
  | .hbm, ⟨11, _⟩ => ⟨S_, .i32⟩
  | .hbm, ⟨12, _⟩ => ⟨S_, .f32⟩
  | .hbm, ⟨13, _⟩ => ⟨S1x1015808, .f32⟩
  | .hbm, ⟨14, _⟩ => ⟨S1x1000000, .f32⟩
  | .hbm, ⟨15, _⟩ => ⟨S_, .i32⟩
  | .hbm, ⟨16, _⟩ => ⟨S_, .f32⟩
  | .hbm, ⟨17, _⟩ => ⟨S1x1015808, .f32⟩
  | .hbm, ⟨18, _⟩ => ⟨S1x1000000, .f32⟩
  | .hbm, ⟨19, _⟩ => ⟨S_, .i32⟩
  | .hbm, ⟨20, _⟩ => ⟨S_, .f32⟩
  | .hbm, ⟨21, _⟩ => ⟨S1x1015808, .f32⟩
  | .hbm, ⟨22, _⟩ => ⟨S1x1000000, .f32⟩
  | .hbm, ⟨23, _⟩ => ⟨S_, .i32⟩
  | .hbm, ⟨24, _⟩ => ⟨S_, .f32⟩
  | .hbm, ⟨25, _⟩ => ⟨S1x1015808, .f32⟩
  | .hbm, ⟨26, _⟩ => ⟨S64x1, .f32⟩
  | .hbm, ⟨27, _⟩ => ⟨S64, .f32⟩
  | .hbm, ⟨28, _⟩ => ⟨S64x1, .f32⟩
  | .hbm, ⟨29, _⟩ => ⟨S64x1, .f32⟩
  | .hbm, ⟨30, _⟩ => ⟨S64, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S64, .f32⟩
  | .hbm, ⟨35, _⟩ => ⟨S64x1, .f32⟩
  | .hbm, ⟨36, _⟩ => ⟨S1x1, .f32⟩
  | .hbm, ⟨37, _⟩ => ⟨S1x1015808, .f32⟩
  | .hbm, ⟨38, _⟩ => ⟨S1x1015808, .f32⟩
  | .hbm, ⟨39, _⟩ => ⟨S1x1015808, .f32⟩
  | .hbm, ⟨40, _⟩ => ⟨S1x1015808, .f32⟩
  | .hbm, ⟨41, _⟩ => ⟨S1x1000000, .f32⟩
  | .hbm, ⟨42, _⟩ => ⟨S1000000, .f32⟩
  | .hbm, ⟨43, _⟩ => ⟨S1x1000000, .f32⟩
  | .hbm, ⟨44, _⟩ => ⟨S1000000, .f32⟩
  | .hbm, ⟨45, _⟩ => ⟨S1x1000000, .f32⟩
  | .hbm, ⟨46, _⟩ => ⟨S1000000, .f32⟩
  | .hbm, ⟨47, _⟩ => ⟨S1x1000000, .f32⟩
  | .hbm, ⟨48, _⟩ => ⟨S1000000, .f32⟩
  | .local _ .vmem, ⟨0, _⟩ => ⟨S1x32768, .f32⟩
  | .local _ .vmem, ⟨1, _⟩ => ⟨S1x32768, .f32⟩
  | .local _ .vmem, ⟨2, _⟩ => ⟨S1x32768, .f32⟩
  | .local _ .vmem, ⟨3, _⟩ => ⟨S1x32768, .f32⟩
  | .local _ .vmem, ⟨4, _⟩ => ⟨S1x32768, .f32⟩
  | .local _ .vmem, ⟨5, _⟩ => ⟨S1x32768, .f32⟩
  | .local _ .vmem, ⟨6, _⟩ => ⟨S1x32768, .f32⟩
  | .local _ .vmem, ⟨7, _⟩ => ⟨S1x32768, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x64, .f32⟩
  | .local _ .vmem, ⟨12, _⟩ => ⟨S64x1, .f32⟩
  | .local _ .vmem, ⟨13, _⟩ => ⟨S64x1, .f32⟩
  | .local _ .vmem, ⟨14, _⟩ => ⟨S1x1, .f32⟩
  | .local _ .vmem, ⟨15, _⟩ => ⟨S1x32768, .f32⟩
  | .local _ .vmem, ⟨16, _⟩ => ⟨S1x32768, .f32⟩
  | .local _ .vmem, ⟨17, _⟩ => ⟨S1x32768, .f32⟩
  | .local _ .vmem, ⟨18, _⟩ => ⟨S1x32768, .f32⟩
  | .local _ .vmem, ⟨19, _⟩ => ⟨S1x32768, .f32⟩
  | .local _ .vmem, ⟨20, _⟩ => ⟨S1x32768, .f32⟩
  | .local _ .vmem, ⟨21, _⟩ => ⟨S1x32768, .f32⟩
  | .local _ .vmem, ⟨22, _⟩ => ⟨S1x32768, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_c_2 : Ref sig .tc := ⟨.hbm, 23, rfl⟩
abbrev main_call3_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x32768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S1000000_S1x1000000 : S1000000.ShapeCasts S1x1000000
  pads_S1x1000000_S1x1015808_000_0158080 : S1x1000000.Pads (![0, 0] : Fin 2 → Nat) ![0, 15808] ![0, 0] S1x1015808
  h_S_ : 0 < S_.numel
  slices_S64x2_S64x1_0_0 : S64x2.Slices ![0, 0] S64x1
  shapeCasts_S64x1_S64 : S64x1.ShapeCasts S64
  shapeCasts_S64_S64x1 : S64.ShapeCasts S64x1
  slices_S64x2_S64x1_0_1 : S64x2.Slices ![0, 1] S64x1
  shapeCasts_S1x64_S64 : S1x64.ShapeCasts S64
  shapeCasts_S1_S1x1 : S1.ShapeCasts S1x1
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x64_S64x64_0_0 : ∀ a, (![0, 0] : Fin 2 → Nat) a + S64x64.size a ≤ S64x64.size a
  h_S64x64 : 0 < S64x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S64x1_S64x32768 : S64x1.Broadcasts S64x32768
  broadcasts_S1x32768_S64x32768 : S1x32768.Broadcasts S64x32768
  bitsLt_bf16_f32 : FTy.bits .bf16 < FTy.bits .f32
  reduces_S64x32768_S32768 : S64x32768.Reduces [0] S32768
  shapeCasts_S32768_S1x32768 : S32768.ShapeCasts S1x32768
  broadcasts_S1x1_S1x32768 : S1x1.Broadcasts S1x32768
  broadcasts_S1x1_S64x1 : S1x1.Broadcasts S64x1
  reduces_S64x1_S1 : S64x1.Reduces [0] S1
  slices_S1x1015808_S1x1000000_0_0 : S1x1015808.Slices ![0, 0] S1x1000000
  shapeCasts_S1x1000000_S1000000 : S1x1000000.ShapeCasts S1000000
  dot_S64x64_S64x32768_S64x32768_1_0_0_1_n_n_wf : DotDims.WF S64x64 S64x32768 S64x32768 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32768.size a ≤ S1x1015808.size a
  hwx0_0 : ∀ i : grid0.Coords, EltTy.bits .f32 = 32 ∨ (Rect.block (s := S1x1015808) S1x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x1015808.size a
  hwx0_1 : ∀ i : grid0.Coords, EltTy.bits .f32 = 32 ∨ (Rect.block (s := S1x1015808) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x1015808.size a
  hwx0_2 : ∀ i : grid0.Coords, EltTy.bits .f32 = 32 ∨ (Rect.block (s := S1x1015808) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32768.size a ≤ S1x1015808.size a
  hwx0_3 : ∀ i : grid0.Coords, EltTy.bits .f32 = 32 ∨ (Rect.block (s := S1x1015808) S1x32768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32768.size a ≤ S1x1015808.size a
  hwx0_11 : ∀ i : grid0.Coords, EltTy.bits .f32 = 32 ∨ (Rect.block (s := S1x1015808) S1x32768.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32768.size a ≤ S1x1015808.size a
  hwx0_12 : ∀ i : grid0.Coords, EltTy.bits .f32 = 32 ∨ (Rect.block (s := S1x1015808) S1x32768.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x32768.size a ≤ S1x1015808.size a
  hwx0_13 : ∀ i : grid0.Coords, EltTy.bits .f32 = 32 ∨ (Rect.block (s := S1x1015808) S1x32768.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x32768.size a ≤ S1x1015808.size a
  hwx0_14 : ∀ i : grid0.Coords, EltTy.bits .f32 = 32 ∨ (Rect.block (s := S1x1015808) S1x32768.size (cc0_transform_14 i) (hinb0_14 i)).WholeWords (EltTy.packing .f32)

variable [Facts₀]

def dot_S64x64_S64x32768_S64x32768_1_0_0_1_n_n : DotDims S64x64 S64x32768 S64x32768 where
  lhsContracting := [1]
  rhsContracting := [0]
  lhsNonContracting := [0]
  rhsNonContracting := [1]
  lhsBatch := []
  rhsBatch := []
  wf := dot_S64x64_S64x32768_S64x32768_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v1) S1x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x32768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19_0) S1x32768.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19_1) S1x32768.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v19_2) S1x32768.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v19_3) S1x32768.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S1000000 : Shape := ⟨1, ![1000000]⟩
abbrev S64x2 : Shape := ⟨2, ![64, 2]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1000000x1 : Shape := ⟨2, ![1000000, 1]⟩
abbrev S1000000x2 : Shape := ⟨2, ![1000000, 2]⟩
abbrev S_ : Shape := ⟨0, ![]⟩
abbrev S1x2 : Shape := ⟨2, ![1, 2]⟩
abbrev S2x64 : Shape := ⟨2, ![2, 64]⟩
abbrev S1000000x64 : Shape := ⟨2, ![1000000, 64]⟩
abbrev S64x1 : Shape := ⟨2, ![64, 1]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S1000000, .f32⟩
  | .hbm, ⟨3, _⟩ => ⟨S1000000, .f32⟩
  | .hbm, ⟨4, _⟩ => ⟨S64x2, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1000000, .f32⟩
  | .hbm, ⟨11, _⟩ => ⟨S1000000, .f32⟩
  | .hbm, ⟨12, _⟩ => ⟨S1000000x1, .f32⟩
  | .hbm, ⟨13, _⟩ => ⟨S1000000x1, .f32⟩
  | .hbm, ⟨14, _⟩ => ⟨S1000000x2, .f32⟩
  | .hbm, ⟨15, _⟩ => ⟨S_, .f32⟩
  | .hbm, ⟨16, _⟩ => ⟨S1x2, .f32⟩
  | .hbm, ⟨17, _⟩ => ⟨S2x64, .f32⟩
  | .hbm, ⟨18, _⟩ => ⟨S1000000x64, .f32⟩
  | .hbm, ⟨19, _⟩ => ⟨S1x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000x64, .f32⟩
  | .hbm, ⟨24, _⟩ => ⟨S1000000x64, .f32⟩
  | .hbm, ⟨25, _⟩ => ⟨S64x64, .f32⟩
  | .hbm, ⟨26, _⟩ => ⟨S1000000x64, .f32⟩
  | .hbm, ⟨27, _⟩ => ⟨S1x64, .f32⟩
  | .hbm, ⟨28, _⟩ => ⟨S1000000x64, .f32⟩
  | .hbm, ⟨29, _⟩ => ⟨S1000000x64, .f32⟩
  | .hbm, ⟨30, _⟩ => ⟨S_, .f32⟩
  | .hbm, ⟨31, _⟩ => ⟨S1000000x64, .f32⟩
  | .hbm, ⟨32, _⟩ => ⟨S1000000x64, .f32⟩
  | .hbm, ⟨33, _⟩ => ⟨S64x1, .f32⟩
  | .hbm, ⟨34, _⟩ => ⟨S1000000x1, .f32⟩
  | .hbm, ⟨35, _⟩ => ⟨S1x1, .f32⟩
  | .hbm, ⟨36, _⟩ => ⟨S1000000x1, .f32⟩
  | .hbm, ⟨37, _⟩ => ⟨S1000000x1, .f32⟩
  | .hbm, ⟨38, _⟩ => ⟨S2x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S_, .f32⟩
  | .hbm, ⟨43, _⟩ => ⟨S1x64, .f32⟩
  | .hbm, ⟨44, _⟩ => ⟨S1x64, .f32⟩
  | .hbm, ⟨45, _⟩ => ⟨S64x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S_, .f32⟩
  | .hbm, ⟨50, _⟩ => ⟨S1x64, .f32⟩
  | .hbm, ⟨51, _⟩ => ⟨S1x64, .f32⟩
  | .hbm, ⟨52, _⟩ => ⟨S64x1, .f32⟩
  | .hbm, ⟨53, _⟩ => ⟨S1x1, .f32⟩
  | .hbm, ⟨54, _⟩ => ⟨S1x1, .f32⟩
  | .hbm, ⟨55, _⟩ => ⟨S1x1, .f32⟩
  | .hbm, ⟨56, _⟩ => ⟨S1000000x1, .f32⟩
  | .hbm, ⟨57, _⟩ => ⟨S1000000x1, .f32⟩
  | .hbm, ⟨58, _⟩ => ⟨S1000000, .f32⟩
  | .hbm, ⟨59, _⟩ => ⟨S_, .f32⟩
  | .hbm, ⟨60, _⟩ => ⟨S1000000, .f32⟩
  | .hbm, ⟨61, _⟩ => ⟨S1000000, .f32⟩
  | .hbm, ⟨62, _⟩ => ⟨S_, .f32⟩
  | .hbm, ⟨63, _⟩ => ⟨S1000000, .f32⟩
  | .hbm, ⟨64, _⟩ => ⟨S1000000, .f32⟩
  | .hbm, ⟨65, _⟩ => ⟨S1000000, .f32⟩
  | .hbm, ⟨66, _⟩ => ⟨S1000000, .f32⟩
  | .hbm, ⟨67, _⟩ => ⟨S_, .f32⟩
  | .hbm, ⟨68, _⟩ => ⟨S1000000, .f32⟩
  | .hbm, ⟨69, _⟩ => ⟨S1000000, .f32⟩
  | .hbm, ⟨70, _⟩ => ⟨S1000000, .f32⟩
  | .hbm, ⟨71, _⟩ => ⟨S1000000, .f32⟩
  | .hbm, ⟨72, _⟩ => ⟨S1000000, .f32⟩
  | .hbm, ⟨73, _⟩ => ⟨S_, .f32⟩
  | .hbm, ⟨74, _⟩ => ⟨S1000000, .f32⟩
  | .hbm, ⟨75, _⟩ => ⟨S1000000, .f32⟩
  | .hbm, ⟨76, _⟩ => ⟨S1000000, .f32⟩
  | .hbm, ⟨77, _⟩ => ⟨S1000000, .f32⟩
  | .hbm, ⟨78, _⟩ => ⟨S_, .f32⟩
  | .hbm, ⟨79, _⟩ => ⟨S1000000, .f32⟩
  | .hbm, ⟨80, _⟩ => ⟨S1000000, .f32⟩
  | .hbm, ⟨81, _⟩ => ⟨S_, .f32⟩
  | .hbm, ⟨82, _⟩ => ⟨S1000000, .f32⟩
  | .hbm, ⟨83, _⟩ => ⟨S1000000, .f32⟩
  | .hbm, ⟨84, _⟩ => ⟨S1000000, .f32⟩
  | .hbm, ⟨85, _⟩ => ⟨S_, .f32⟩
  | .hbm, ⟨86, _⟩ => ⟨S1000000, .f32⟩
  | .hbm, ⟨87, _⟩ => ⟨S1000000, .f32⟩
  | .hbm, ⟨88, _⟩ => ⟨S_, .f32⟩
  | .hbm, ⟨89, _⟩ => ⟨S1000000, .f32⟩
  | .hbm, ⟨90, _⟩ => ⟨S1000000, .f32⟩
  | .hbm, ⟨91, _⟩ => ⟨S_, .f32⟩
  | .hbm, ⟨92, _⟩ => ⟨S1000000, .f32⟩
  | .hbm, ⟨93, _⟩ => ⟨S1000000, .f32⟩
  | .hbm, ⟨94, _⟩ => ⟨S_, .f32⟩
  | .hbm, ⟨95, _⟩ => ⟨S1000000, .f32⟩
  | .hbm, ⟨96, _⟩ => ⟨S1000000, .f32⟩
  | .hbm, ⟨97, _⟩ => ⟨S1000000, .f32⟩
  | .hbm, ⟨98, _⟩ => ⟨S_, .f32⟩
  | .hbm, ⟨99, _⟩ => ⟨S1000000, .f32⟩
  | .hbm, ⟨100, _⟩ => ⟨S1000000, .f32⟩
  | .hbm, ⟨101, _⟩ => ⟨S1000000, .f32⟩
  | .hbm, ⟨102, _⟩ => ⟨S1000000, .f32⟩
  | .hbm, ⟨103, _⟩ => ⟨S1000000, .f32⟩
  | .hbm, ⟨104, _⟩ => ⟨S_, .f32⟩
  | .hbm, ⟨105, _⟩ => ⟨S1000000, .f32⟩
  | .hbm, ⟨106, _⟩ => ⟨S1000000, .f32⟩
  | .hbm, ⟨107, _⟩ => ⟨S_, .f32⟩
  | .hbm, ⟨108, _⟩ => ⟨S1000000, .f32⟩
  | .hbm, ⟨109, _⟩ => ⟨S1000000, .f32⟩
  | .hbm, ⟨110, _⟩ => ⟨S_, .f32⟩
  | .hbm, ⟨111, _⟩ => ⟨S1000000, .f32⟩
  | .hbm, ⟨112, _⟩ => ⟨S1000000, .f32⟩
  | .hbm, ⟨113, _⟩ => ⟨S1000000, .f32⟩
  | .hbm, ⟨114, _⟩ => ⟨S_, .f32⟩
  | .hbm, ⟨115, _⟩ => ⟨S1000000, .f32⟩
  | .hbm, ⟨116, _⟩ => ⟨S1000000, .f32⟩
  | .hbm, ⟨117, _⟩ => ⟨S1000000, .f32⟩
  | .hbm, ⟨118, _⟩ => ⟨S_, .f32⟩
  | .hbm, ⟨119, _⟩ => ⟨S1000000, .f32⟩
  | .hbm, ⟨120, _⟩ => ⟨S1000000, .f32⟩
  | .hbm, ⟨121, _⟩ => ⟨S1000000, .f32⟩
  | .hbm, ⟨122, _⟩ => ⟨S1000000, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call1_cst : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call2_cst : Ref sig .tc := ⟨.hbm, 42, rfl⟩
abbrev main_call2_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call3_cst : Ref sig .tc := ⟨.hbm, 49, rfl⟩
abbrev main_call3_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_0 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_3 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_4 : Ref sig .tc := ⟨.hbm, 78, rfl⟩
abbrev main_v55 : Ref sig .tc := ⟨.hbm, 79, rfl⟩
abbrev main_v56 : Ref sig .tc := ⟨.hbm, 80, rfl⟩
abbrev main_cst_5 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_6 : Ref sig .tc := ⟨.hbm, 85, rfl⟩
abbrev main_v60 : Ref sig .tc := ⟨.hbm, 86, rfl⟩
abbrev main_v61 : Ref sig .tc := ⟨.hbm, 87, rfl⟩
abbrev main_cst_7 : Ref sig .tc := ⟨.hbm, 88, rfl⟩
abbrev main_v62 : Ref sig .tc := ⟨.hbm, 89, rfl⟩
abbrev main_v63 : Ref sig .tc := ⟨.hbm, 90, rfl⟩
abbrev main_cst_8 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_11 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_cst_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S1x2 : S_.BroadcastsInDim S1x2 (![] : Fin 0 → Fin S1x2.rank)
  transposes_S64x2_S2x64_1_0 : S64x2.Transposes [1, 0] S2x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1x64 : S_.BroadcastsInDim S1x64 (![] : Fin 0 → Fin S1x64.rank)
  shapeCasts_S1000000x1_S1000000 : S1000000x1.ShapeCasts S1000000
  bcast_S_S1000000 : S_.BroadcastsInDim S1000000 (![] : Fin 0 → Fin S1000000.rank)
  dot_S1000000x2_S2x64_S1000000x64_1_0_0_1_n_n_wf : DotDims.WF S1000000x2 S2x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []
  dot_S1x2_S2x64_S1x64_1_0_0_1_n_n_wf : DotDims.WF S1x2 S2x64 S1x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []

variable [Facts₀]

def dot_S1000000x2_S2x64_S1000000x64_1_0_0_1_n_n : DotDims S1000000x2 S2x64 S1000000x64 where
  lhsContracting := [1]
  rhsContracting := [0]
  lhsNonContracting := [0]
  rhsNonContracting := [1]
  lhsBatch := []
  rhsBatch := []
  wf := dot_S1000000x2_S2x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf
def dot_S1x2_S2x64_S1x64_1_0_0_1_n_n : DotDims S1x2 S2x64 S1x64 where
  lhsContracting := [1]
  rhsContracting := [0]
  lhsNonContracting := [0]
  rhsNonContracting := [1]
  lhsBatch := []
  rhsBatch := []
  wf := dot_S1x2_S2x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.GrnSpec.lean ====
/-
  The mathematics of the certificate, on the extended reals, with no program in sight.

  A point (x, y) of the plane, perturbed by (e_x, e_y), is fed to a small network
  2 → 64 → 64 → 1 with rectifiers,
      h1 k = max (w1x k · zx + w1y k · zy + b1 k) 0,
      h2 j = max (Σ_k W2 j k · h1 k + b2 j) 0,
      net  = Σ_j h2 j · w3 j + b3,
  and the control is  u = net (x + e_x, y + e_y) − net (T, T)  for a fixed target T.  The two
  coordinates are scaled by 10, squared, and passed through the Hill functions
      act s = s² / (1/4 + s²),   rep s = (1/4) / (1/4 + s²),
  and the vector field is
      dx = 10 · (1 · act xs + (1/5)ᶠ · rep ys − (11/10)ᶠ · xs + u · act xs),
      dy = 10 · (1 · act ys + (1/5)ᶠ · rep xs − (11/10)ᶠ · ys),
  where the decorated constants are the binary32 words both programs carry (never evaluated
  here: the same word stands on both sides).  Every operation is the extended reals' own
  (+, ·, −, max, and the library's total quotient), so the formulas make sense at ±∞ too.
-/
import Idealize.ShloMosaic.PureOps.Ideal
import Idealize.ShloMosaic.Lib.ValueIdx

noncomputable section

namespace Cert.GrnSpec

open Idealize.ShloMosaic Idealize.ShloMosaic.ValueIdx
open scoped BigOperators

/-! ## The constants, as the binary32 words the programs carry -/

/-- zero -/
abbrev c0 : EReal := Ideal.ofBits .f32 0x00000000#32
/-- the target, 6.25620604 -/
abbrev cT : EReal := Ideal.ofBits .f32 0x40C832D7#32
/-- ten -/
abbrev c10 : EReal := Ideal.ofBits .f32 0x41200000#32
/-- one quarter -/
abbrev cq : EReal := Ideal.ofBits .f32 0x3E800000#32
/-- one -/
abbrev c1 : EReal := Ideal.ofBits .f32 0x3F800000#32
/-- the word nearest one fifth -/
abbrev c02 : EReal := Ideal.ofBits .f32 0x3E4CCCCD#32
/-- the word nearest eleven tenths -/
abbrev c11 : EReal := Ideal.ofBits .f32 0x3F8CCCCD#32

/-! ## The network -/

/-- The network's parameters: two input columns and a bias for the first layer, a 64 × 64 matrix and a bias for the
    second, a row and a scalar bias for the read-out. -/
structure Weights where
  w1x : Fin 64 → EReal
  w1y : Fin 64 → EReal
  b1 : Fin 64 → EReal
  W2 : Fin 64 → Fin 64 → EReal
  b2 : Fin 64 → EReal
  w3 : Fin 64 → EReal
  b3 : EReal

/-- First hidden layer at the input (zx, zy). -/
def layer1 (P : Weights) (zx zy : EReal) (k : Fin 64) : EReal :=
  max (P.w1x k * zx + P.w1y k * zy + P.b1 k) c0

/-- Second hidden layer. -/
def layer2 (P : Weights) (zx zy : EReal) (j : Fin 64) : EReal :=
  max ((∑ k : Fin 64, P.W2 j k * layer1 P zx zy k) + P.b2 j) c0

/-- The network's scalar output. -/
def net (P : Weights) (zx zy : EReal) : EReal :=
  (∑ j : Fin 64, layer2 P zx zy j * P.w3 j) + P.b3

/-- The control: the network at the input less the network at the target. -/
def controlOf (P : Weights) (zx zy : EReal) : EReal := net P zx zy - net P cT cT

/-! ## The vector field -/

/-- A coordinate scaled by ten. -/
def scaled (x : EReal) : EReal := Ideal.div x c10
/-- Hill activation of a scaled coordinate. -/
def act (s : EReal) : EReal := Ideal.div (s * s) (cq + s * s)
/-- Hill repression by a scaled coordinate. -/
def rep (s : EReal) : EReal := Ideal.div cq (cq + s * s)

/-- The x-component of the field at (x, y) under the control u. -/
def fieldX (u x y : EReal) : EReal :=
  c10 * (c1 * act (scaled x) + c02 * rep (scaled y) - c11 * scaled x + u * act (scaled x))
/-- The y-component (the control does not enter). -/
def fieldY (x y : EReal) : EReal :=
  c10 * (c1 * act (scaled y) + c02 * rep (scaled x) - c11 * scaled y)

/-- The x-component with its control computed from the perturbed point. -/
def dX (P : Weights) (x y ex ey : EReal) : EReal := fieldX (controlOf P (x + ex) (y + ey)) x y

/-! ## The parameters read out of the argument arrays -/

/-- The parameters as the six parameter arrays of the programs hold them: W1 is 64 × 2 (a column per input
    coordinate), W3 is 1 × 64, the biases are vectors. -/
def weightsOf (a4 : (⟨2, ![64, 2]⟩ : Shape).Idx → EReal) (a5 : (⟨1, ![64]⟩ : Shape).Idx → EReal)
    (a6 : (⟨2, ![64, 64]⟩ : Shape).Idx → EReal) (a7 : (⟨1, ![64]⟩ : Shape).Idx → EReal)
    (a8 : (⟨2, ![1, 64]⟩ : Shape).Idx → EReal) (a9 : (⟨1, ![1]⟩ : Shape).Idx → EReal) : Weights where
  w1x k := a4 (ix2 k (0 : Fin 2))
  w1y k := a4 (ix2 k (1 : Fin 2))
  b1 k := a5 (ix1 k)
  W2 j k := a6 (ix2 j k)
  b2 j := a7 (ix1 j)
  w3 j := a8 (ix2 (0 : Fin 1) j)
  b3 := a9 (ix1 (0 : Fin 1))

/-- The same parameters as the kernel is handed them: every vector a 64 × 1 column, the scalar a 1 × 1 array. -/
def weightsOfColumns (w1x w1y b1 : (⟨2, ![64, 1]⟩ : Shape).Idx → EReal) (W2 : (⟨2, ![64, 64]⟩ : Shape).Idx → EReal)
    (b2 w3 : (⟨2, ![64, 1]⟩ : Shape).Idx → EReal) (b3 : (⟨2, ![1, 1]⟩ : Shape).Idx → EReal) : Weights where
  w1x k := w1x (ix2 k (0 : Fin 1))
  w1y k := w1y (ix2 k (0 : Fin 1))
  b1 k := b1 (ix2 k (0 : Fin 1))
  W2 j k := W2 (ix2 j k)
  b2 j := b2 (ix2 j (0 : Fin 1))
  w3 j := w3 (ix2 j (0 : Fin 1))
  b3 := b3 (ix2 (0 : Fin 1) (0 : Fin 1))

/-- The two readings give the same parameters when the columns hold the arrays' entries. -/
theorem weightsOfColumns_eq_weightsOf (w1x w1y b1 : (⟨2, ![64, 1]⟩ : Shape).Idx → EReal) (W2 : (⟨2, ![64, 64]⟩ : Shape).Idx → EReal)
    (b2 w3 : (⟨2, ![64, 1]⟩ : Shape).Idx → EReal) (b3 : (⟨2, ![1, 1]⟩ : Shape).Idx → EReal)
    (a4 : (⟨2, ![64, 2]⟩ : Shape).Idx → EReal) (a5 : (⟨1, ![64]⟩ : Shape).Idx → EReal)
    (a6 : (⟨2, ![64, 64]⟩ : Shape).Idx → EReal) (a7 : (⟨1, ![64]⟩ : Shape).Idx → EReal)
    (a8 : (⟨2, ![1, 64]⟩ : Shape).Idx → EReal) (a9 : (⟨1, ![1]⟩ : Shape).Idx → EReal)
    (h1 : ∀ k : Fin 64, w1x (ix2 k (0 : Fin 1)) = a4 (ix2 k (0 : Fin 2)))
    (h2 : ∀ k : Fin 64, w1y (ix2 k (0 : Fin 1)) = a4 (ix2 k (1 : Fin 2)))
    (h3 : ∀ k : Fin 64, b1 (ix2 k (0 : Fin 1)) = a5 (ix1 k))
    (h4 : W2 = a6)
    (h5 : ∀ k : Fin 64, b2 (ix2 k (0 : Fin 1)) = a7 (ix1 k))
    (h6 : ∀ k : Fin 64, w3 (ix2 k (0 : Fin 1)) = a8 (ix2 (0 : Fin 1) k))
    (h7 : b3 (ix2 (0 : Fin 1) (0 : Fin 1)) = a9 (ix1 (0 : Fin 1))) :
    weightsOfColumns w1x w1y b1 W2 b2 w3 b3 = weightsOf a4 a5 a6 a7 a8 a9 := by
  subst h4
  unfold weightsOfColumns weightsOf
  rw [funext h1, funext h2, funext h3, funext h5, funext h6, h7]

/-! ## The four results, as arrays over the million points -/

/-- dx at every point. -/
def resultX (a0 a1 a2 a3 : (⟨1, ![1000000]⟩ : Shape).Idx → EReal) (P : Weights) : (⟨1, ![1000000]⟩ : Shape).Idx → EReal :=
  fun i => dX P (a0 i) (a1 i) (a2 i) (a3 i)
/-- dy at every point. -/
def resultY (a0 a1 : (⟨1, ![1000000]⟩ : Shape).Idx → EReal) : (⟨1, ![1000000]⟩ : Shape).Idx → EReal :=
  fun i => fieldY (a0 i) (a1 i)

end Cert.GrnSpec

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibAxisSums.lean ====
/-
  Sums along one axis of an array of extended reals, read at an index, for any extents.

  On the extended reals a float sum is the exact sum, so the vector unit's reduction of one axis is, at every index
  of the result, the finite sum of the operand over that axis's coordinate with the other coordinates held fixed.
  The statements below spell this out with the indices written by coordinates for the four layouts a masked
  per-cell sum goes through — the channel axis of [a, c, h, w], the last axis of [a, h, w], the last axis of [a, h]
  and the leading axis of [a, b] — together with two casts that only insert or remove an axis of extent one, and the
  fact that a sum over all indices of a rank-3 array is the triple sum over its coordinates.
  Nothing here needs an entry to be finite: only that addition is commutative and associative.
-/
import Idealize.ShloMosaic.Lib.ValueIdx
import Idealize.ShloMosaic.Lib.Pipeline.Value
import Idealize.ShloMosaic.PureOps.Ideal.Laws

noncomputable section

namespace Cert.LibAxisSums

open Idealize.ShloMosaic Idealize.ShloMosaic.ValueIdx
open scoped BigOperators

/-! ## All indices of a rank-3 array -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in any additive commutative monoid. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One axis summed by the vector unit, at Ideal -/

variable {φ : FTy}

/-- Axis 1 (the channels) of an [a, c, h, w] array summed: at (p, q, r) the sum over the channel k of the entry
    at (p, k, q, r). -/
theorem sum_axis1_of4 {n0 n1 n2 n3 : ℕ} (x : FVec Ideal ⟨4, ![n0, n1, n2, n3]⟩ φ) (acc : BitVec φ.bits)
    (h : (⟨4, ![n0, n1, n2, n3]⟩ : Shape).Reduces [1] ⟨3, ![n0, n2, n3]⟩) (hφ : FKind.Formats φ)
    (hacc : acc = FKind.add.neutral φ hφ) (p : Fin n0) (q : Fin n2) (r : Fin n3) :
    multiReduction .add [1] ⟨3, ![n0, n2, n3]⟩ x acc h hφ hacc (ix3 p q r) = ∑ k : Fin n1, x (ix4 p k q r) :=
  (Ideal.multiReduction_add_single x acc h hφ hacc (ix3 p q r)).trans
    (Finset.sum_congr rfl fun k _ => congrArg x (funext fun a => Fin.ext (by
      match a with
      | ⟨0, _⟩ => rfl
      | ⟨1, _⟩ => rfl
      | ⟨2, _⟩ => rfl
      | ⟨3, _⟩ => rfl)))

/-- The last axis of an [a, h, w] array summed: at (p, q) the sum over k of the entry at (p, q, k). -/
theorem sum_axis2_of3 {n0 n1 n2 : ℕ} (x : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (p : Fin n0) (q : Fin n1) :
    multiReduction .add [2] ⟨2, ![n0, n1]⟩ x acc h hφ hacc (ix2 p q) = ∑ k : Fin n2, x (ix3 p q k) :=
  (Ideal.multiReduction_add_single x acc h hφ hacc (ix2 p q)).trans
    (Finset.sum_congr rfl fun k _ => congrArg x (funext fun a => Fin.ext (by
      match a with
      | ⟨0, _⟩ => rfl
      | ⟨1, _⟩ => rfl
      | ⟨2, _⟩ => rfl)))

/-- The last axis of an [a, h] array summed: at p the sum over k of the entry at (p, k). -/
theorem sum_axis1_of2 {n0 n1 : ℕ} (x : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (p : Fin n0) :
    multiReduction .add [1] ⟨1, ![n0]⟩ x acc h hφ hacc (ix1 p) = ∑ k : Fin n1, x (ix2 p k) :=
  (Ideal.multiReduction_add_single x acc h hφ hacc (ix1 p)).trans
    (Finset.sum_congr rfl fun k _ => congrArg x (funext fun a => Fin.ext (by
      match a with
      | ⟨0, _⟩ => rfl
      | ⟨1, _⟩ => rfl)))

/-- The leading axis of an [a, b] array summed: at q the sum over k of the entry at (k, q). -/
theorem sum_axis0_of2 {n0 n1 : ℕ} (x : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ x acc h hφ hacc (ix1 q) = ∑ k : Fin n0, x (ix2 k q) :=
  (Ideal.multiReduction_add_single x acc h hφ hacc (ix1 q)).trans
    (Finset.sum_congr rfl fun k _ => congrArg x (funext fun a => Fin.ext (by
      match a with
      | ⟨0, _⟩ => rfl
      | ⟨1, _⟩ => rfl)))

/-! ## Casts that insert or remove an axis of extent one -/

variable {α : Type}

/-- An [a, 1, b, c] array cast to [a, b, c] reads, at (p, q, r), the operand at (p, 0, q, r). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- An [a] array cast to the column [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibAxisSums

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelPoint.lean ====
/-
  The kernel's arithmetic at one lane.  The body works on a block of 32768 points laid along the lanes, the
  64 hidden units along the sublanes: every operation is pointwise along the lanes, the second layer a
  product of the 64 × 64 matrix with the 64 × 32768 block of first-layer activations (so column q of the
  product sees column q only), the read-out a sum down the sublanes.  Read at lane q the body's four
  stored values are the vector field of GrnSpec at the q-th point of the block, and its negative.
-/
import proofs.«173381_j58901181497818_2_alg».proof.Proof.Gen.KernelIdeal.Skeleton
import proofs.«173381_j58901181497818_2_alg».proof.Proof.GrnSpec
import proofs.«173381_j58901181497818_2_alg».proof.Proof.LibMatmul2d
import proofs.«173381_j58901181497818_2_alg».proof.Proof.LibAxisSums
import proofs.«173381_j58901181497818_2_alg».proof.Proof.LibRowwise
import Idealize.ShloMosaic.Lib.ValueLayout
import Idealize.ShloMosaic.Lib.Pipeline.Value
import Idealize.ShloMosaic.PureOps.Ideal.Laws

noncomputable section

namespace Cert.KernelIdeal.Point

open Idealize.ShloMosaic Idealize.ShloMosaic.ValueIdx Cert.KernelIdeal Cert.KernelIdeal.Gen Cert.GrnSpec
open scoped BigOperators

/-- The body's two products contract the matrix's columns against the right factor's rows. -/
theorem dot_wide : dot_S64x64_S64x32768_S64x32768_1_0_0_1_n_n = DotDims.plain 64 64 32768 := rfl
theorem dot_col : dot_S64x64_S64x1_S64x1_1_0_0_1_n_n = DotDims.plain 64 64 1 := rfl

/-! ## The first layer -/

/-- First layer at hidden unit k and lane q: max (w1x k · zx q + w1y k · zy q + b1 k) 0 with zx = x + e_x, zy = y + e_y
    (the rounding to the matrix unit's input format is the identity on the extended reals). -/
theorem first_layer_apply (v0 v2 v4 v6 : FVec Ideal S1x32768 .f32) (v10 v12 v14 : FVec Ideal S64x1 .f32) (k : Fin 64) (q : Fin 32768) :
    (k0_pay9 (F := Ideal) v0 v2 v4 v6 v10 v12 v14 (ix2 k q) : EReal)
      = max (v10 (ix2 k (0 : Fin 1)) * (v0 (ix2 (0 : Fin 1) q) + v4 (ix2 (0 : Fin 1) q))
          + v12 (ix2 k (0 : Fin 1)) * (v2 (ix2 (0 : Fin 1) q) + v6 (ix2 (0 : Fin 1) q)) + v14 (ix2 k (0 : Fin 1))) c0 := by
  unfold k0_pay9 k0_pay1 k0_pay2 k0_pay3 k0_pay4 k0_pay5
  dsimp only
  simp only [shapeCast_self]
  show max (broadcastTo S64x32768 v10 broadcasts_S64x1_S64x32768 (ix2 k q) * broadcastTo S64x32768 (addf v0 v4 : FVec Ideal S1x32768 .f32) broadcasts_S1x32768_S64x32768 (ix2 k q)
      + broadcastTo S64x32768 v12 broadcasts_S64x1_S64x32768 (ix2 k q) * broadcastTo S64x32768 (addf v2 v6 : FVec Ideal S1x32768 .f32) broadcasts_S1x32768_S64x32768 (ix2 k q)
      + broadcastTo S64x32768 v14 broadcasts_S64x1_S64x32768 (ix2 k q)) c0 = _
  rw [LibRowwise.broadcastTo_a1_ab_apply, LibRowwise.broadcastTo_a1_ab_apply, LibRowwise.broadcastTo_a1_ab_apply,
    broadcastTo_1b_ab_apply, broadcastTo_1b_ab_apply]
  rfl

/-- The same layer at the constant target input, a single column. -/
theorem first_layer_target_apply (v11 v13 v15 : FVec Ideal S64x1 .f32) (k : Fin 64) :
    (truncf .bf16 (maximumf (addf (addf (mulf v11 (broadcastTo S64x1 (broadcast S1x1 (FloatOps.ofBits (F := Ideal) .f32 0x40C832D7#32)) broadcasts_S1x1_S64x1))
        (mulf v13 (broadcastTo S64x1 (broadcast S1x1 (FloatOps.ofBits (F := Ideal) .f32 0x40C832D7#32)) broadcasts_S1x1_S64x1))) v15)
        (broadcast S64x1 (FloatOps.ofBits (F := Ideal) .f32 0x00000000#32))) bitsLt_bf16_f32 : FVec Ideal S64x1 .bf16) (ix2 k (0 : Fin 1))
      = max (v11 (ix2 k (0 : Fin 1)) * cT + v13 (ix2 k (0 : Fin 1)) * cT + v15 (ix2 k (0 : Fin 1))) c0 := by
  show max (v11 (ix2 k (0 : Fin 1)) * broadcastTo S64x1 (broadcast S1x1 (FloatOps.ofBits (F := Ideal) .f32 0x40C832D7#32)) broadcasts_S1x1_S64x1 (ix2 k (0 : Fin 1))
      + v13 (ix2 k (0 : Fin 1)) * broadcastTo S64x1 (broadcast S1x1 (FloatOps.ofBits (F := Ideal) .f32 0x40C832D7#32)) broadcasts_S1x1_S64x1 (ix2 k (0 : Fin 1))
      + v15 (ix2 k (0 : Fin 1))) c0 = _
  rw [broadcastTo_1b_ab_apply]
  rfl

/-! ## The second layer -/

/-- Second layer on a block: at unit j and lane q, max (Σ_k A j k · B k q + b2 j) 0. -/
theorem second_layer_apply (A : FVec Ideal S64x64 .bf16) (B : FVec Ideal S64x32768 .bf16) (v18 : FVec Ideal S64x1 .f32) (j : Fin 64) (q : Fin 32768) :
    maximumf (addf (matmul dot_S64x64_S64x32768_S64x32768_1_0_0_1_n_n none A B (constant S64x32768 .f32 0x00000000#32))
        (broadcastTo S64x32768 v18 broadcasts_S64x1_S64x32768)) (broadcast S64x32768 (FloatOps.ofBits (F := Ideal) .f32 0x00000000#32)) (ix2 j q)
      = max ((∑ k : Fin 64, A (ix2 j k) * B (ix2 k q)) + v18 (ix2 j (0 : Fin 1))) c0 := by
  show max (matmul dot_S64x64_S64x32768_S64x32768_1_0_0_1_n_n none A B (constant S64x32768 .f32 0x00000000#32) (ix2 j q)
      + broadcastTo S64x32768 v18 broadcasts_S64x1_S64x32768 (ix2 j q)) c0 = _
  rw [LibRowwise.broadcastTo_a1_ab_apply]
  exact congrArg (fun z : EReal => max (z + v18 (ix2 j (0 : Fin 1))) c0) (LibMatmul2d.matmul_plain_apply (M := 64) (K := 64) (N := 32768) A B j q)

/-- Second layer on the single target column. -/
theorem second_layer_target_apply (A : FVec Ideal S64x64 .bf16) (B : FVec Ideal S64x1 .bf16) (v18 : FVec Ideal S64x1 .f32) (j : Fin 64) :
    maximumf (addf (matmul dot_S64x64_S64x1_S64x1_1_0_0_1_n_n none A B (constant S64x1 .f32 0x00000000#32)) v18)
        (broadcast S64x1 (FloatOps.ofBits (F := Ideal) .f32 0x00000000#32)) (ix2 j (0 : Fin 1))
      = max ((∑ k : Fin 64, A (ix2 j k) * B (ix2 k (0 : Fin 1))) + v18 (ix2 j (0 : Fin 1))) c0 :=
  congrArg (fun z : EReal => max (z + v18 (ix2 j (0 : Fin 1))) c0) (LibMatmul2d.matmul_plain_apply (M := 64) (K := 64) (N := 1) A B j (0 : Fin 1))

/-! ## The read-out -/

/-- The read-out on a block: at lane q, Σ_j h2 j q · w3 j + b3. -/
theorem readout_apply (h2 : FVec Ideal S64x32768 .f32) (v20 : FVec Ideal S64x1 .f32) (v22 : FVec Ideal S1x1 .f32) (q : Fin 32768) :
    addf (shapeCast S1x32768 (multiReduction .add [0] S32768 (mulf h2 (broadcastTo S64x32768 v20 broadcasts_S64x1_S64x32768)) 0x00000000#32
        reduces_S64x32768_S32768 (.inl rfl) rfl) shapeCasts_S32768_S1x32768) (broadcastTo S1x32768 v22 broadcasts_S1x1_S1x32768) (ix2 (0 : Fin 1) q)
      = (∑ j : Fin 64, h2 (ix2 j q) * v20 (ix2 j (0 : Fin 1))) + v22 (ix2 (0 : Fin 1) (0 : Fin 1)) := by
  show shapeCast S1x32768 (multiReduction .add [0] S32768 (mulf h2 (broadcastTo S64x32768 v20 broadcasts_S64x1_S64x32768)) 0x00000000#32
        reduces_S64x32768_S32768 (.inl rfl) rfl) shapeCasts_S32768_S1x32768 (ix2 (0 : Fin 1) q)
      + broadcastTo S1x32768 v22 broadcasts_S1x1_S1x32768 (ix2 (0 : Fin 1) q) = _
  rw [shapeCast_a_1a_apply, LibRowwise.broadcastTo_a1_ab_apply]
  refine congrArg (fun z : EReal => z + v22 (ix2 (0 : Fin 1) (0 : Fin 1))) ?_
  refine (LibAxisSums.sum_axis0_of2 _ _ reduces_S64x32768_S32768 (.inl rfl) rfl q).trans (Finset.sum_congr rfl fun j _ => ?_)
  show h2 (ix2 j q) * broadcastTo S64x32768 v20 broadcasts_S64x1_S64x32768 (ix2 j q) = _
  rw [LibRowwise.broadcastTo_a1_ab_apply]

/-- The read-out on the single target column. -/
theorem readout_target_apply (h2 v20 : FVec Ideal S64x1 .f32) (v22 : FVec Ideal S1x1 .f32) :
    addf (shapeCast S1x1 (multiReduction .add [0] S1 (mulf h2 v20) 0x00000000#32 reduces_S64x1_S1 (.inl rfl) rfl) shapeCasts_S1_S1x1) v22
        (ix2 (0 : Fin 1) (0 : Fin 1))
      = (∑ j : Fin 64, h2 (ix2 j (0 : Fin 1)) * v20 (ix2 j (0 : Fin 1))) + v22 (ix2 (0 : Fin 1) (0 : Fin 1)) := by
  show shapeCast S1x1 (multiReduction .add [0] S1 (mulf h2 v20) 0x00000000#32 reduces_S64x1_S1 (.inl rfl) rfl) shapeCasts_S1_S1x1 (ix2 (0 : Fin 1) (0 : Fin 1))
      + v22 (ix2 (0 : Fin 1) (0 : Fin 1)) = _
  rw [shapeCast_a_1a_apply]
  exact congrArg (fun z : EReal => z + v22 (ix2 (0 : Fin 1) (0 : Fin 1)))
    (LibAxisSums.sum_axis0_of2 _ _ reduces_S64x1_S1 (.inl rfl) rfl (0 : Fin 1))

/-! ## The control -/

/-- The body's control value at lane q, from first-layer activations `v34` known at that lane and the matrix `v35`
    as the matrix unit is handed it: the network at the lane's input less the network at the target. -/
theorem control_apply (v11 v13 v15 : FVec Ideal S64x1 .f32) (v16 : FVec Ideal S64x64 .f32) (v18 v20 : FVec Ideal S64x1 .f32)
    (v22 : FVec Ideal S1x1 .f32) (v34 : FVec Ideal S64x32768 .bf16) (v35 : FVec Ideal S64x64 .bf16) (q : Fin 32768) (zx zy : EReal)
    (h34 : ∀ k : Fin 64, v34 (ix2 k q) = layer1 (weightsOfColumns v11 v13 v15 v16 v18 v20 v22) zx zy k)
    (h35 : ∀ j k : Fin 64, v35 (ix2 j k) = v16 (ix2 j k)) :
    (k0_pay11 (F := Ideal) v11 v13 v15 v16 v18 v20 v22 v34 v35 (ix2 (0 : Fin 1) q) : EReal)
      = controlOf (weightsOfColumns v11 v13 v15 v16 v18 v20 v22) zx zy := by
  unfold k0_pay11
  dsimp only
  unfold controlOf
  refine congrArg₂ (fun a b : EReal => a - b) ?_ ?_
  · refine (readout_apply _ v20 v22 q).trans ?_
    unfold net
    refine congrArg (fun z : EReal => z + v22 (ix2 (0 : Fin 1) (0 : Fin 1))) (Finset.sum_congr rfl fun j _ => ?_)
    refine congrArg (fun z : EReal => z * v20 (ix2 j (0 : Fin 1))) ?_
    refine (second_layer_apply v35 v34 v18 j q).trans ?_
    unfold layer2
    refine congrArg (fun z : EReal => max (z + v18 (ix2 j (0 : Fin 1))) c0) (Finset.sum_congr rfl fun k _ => ?_)
    rw [h35 j k, h34 k]; rfl
  · refine (LibRowwise.broadcastTo_a1_ab_apply _ broadcasts_S1x1_S1x32768 (0 : Fin 1) q).trans ?_
    refine (readout_target_apply _ v20 v22).trans ?_
    unfold net
    refine congrArg (fun z : EReal => z + v22 (ix2 (0 : Fin 1) (0 : Fin 1))) (Finset.sum_congr rfl fun j _ => ?_)
    refine congrArg (fun z : EReal => z * v20 (ix2 j (0 : Fin 1))) ?_
    refine (second_layer_target_apply _ _ v18 j).trans ?_
    unfold layer2
    refine congrArg (fun z : EReal => max (z + v18 (ix2 j (0 : Fin 1))) c0) (Finset.sum_congr rfl fun k _ => ?_)
    exact congrArg (fun z : EReal => v16 (ix2 j k) * z) (first_layer_target_apply v11 v13 v15 k)

/-! ## The field -/

/-- The stored x-component from the control `v67`, the scaled coordinate `v69`, the other coordinate's square `v73` and
    the activation `v76`. -/
theorem fieldX_apply (v67 v69 v73 v76 : FVec Ideal S1x32768 .f32) (i : S1x32768.Idx) :
    (k0_pay19 (F := Ideal) v67 v69 v73 v76 i : EReal)
      = c10 * (c1 * v76 i + c02 * Ideal.div cq (cq + v73 i) - c11 * v69 i + v67 i * v76 i) := rfl

/-- The stored y-component from the scaled coordinate `v71`, its activation `v79` and the other coordinate's
    denominator `v81`. -/
theorem fieldY_apply (v71 v79 v81 : FVec Ideal S1x32768 .f32) (i : S1x32768.Idx) :
    (k0_pay20 (F := Ideal) v71 v79 v81 (Scalar.ofBits .f32 0x3E800000#32) i : EReal)
      = c10 * (c1 * v79 i + c02 * Ideal.div cq (v81 i) - c11 * v71 i) := rfl

/-- The two negated stores subtract from the zero word. -/
theorem negX_apply (v67 v69 v73 v76 : FVec Ideal S1x32768 .f32) (i : S1x32768.Idx) :
    (k0_pay21 (F := Ideal) v67 v69 v73 v76 i : EReal) = c0 - k0_pay19 (F := Ideal) v67 v69 v73 v76 i := rfl
theorem negY_apply (v71 v79 v81 : FVec Ideal S1x32768 .f32) (i : S1x32768.Idx) :
    (k0_pay22 (F := Ideal) v71 v79 v81 (Scalar.ofBits .f32 0x3E800000#32) i : EReal)
      = c0 - k0_pay20 (F := Ideal) v71 v79 v81 (Scalar.ofBits .f32 0x3E800000#32) i := rfl

/-- Subtracting from the zero word negates. -/
theorem zero_word_sub (z : EReal) : c0 - z = -z := by
  rw [show c0 = 0 from Ideal.ofBits_zero_f32, zero_sub]

/-- The body's re-typings of a loaded block to its own shape change nothing. -/
theorem pay1_eq (v : FVec Ideal S1x32768 .f32) : k0_pay1 (F := Ideal) v = v := shapeCast_self v _
theorem pay2_eq (v : FVec Ideal S1x32768 .f32) : k0_pay2 (F := Ideal) v = v := shapeCast_self v _
theorem pay3_eq (v : FVec Ideal S64x1 .f32) : k0_pay3 (F := Ideal) v = v := shapeCast_self v _
theorem pay4_eq (v : FVec Ideal S64x1 .f32) : k0_pay4 (F := Ideal) v = v := shapeCast_self v _
theorem pay5_eq (v : FVec Ideal S64x1 .f32) : k0_pay5 (F := Ideal) v = v := shapeCast_self v _
theorem pay6_eq (v : FVec Ideal S64x1 .f32) : k0_pay6 (F := Ideal) v = v := shapeCast_self v _
theorem pay7_eq (v : FVec Ideal S64x1 .f32) : k0_pay7 (F := Ideal) v = v := shapeCast_self v _
theorem pay8_eq (v : FVec Ideal S1x1 .f32) : k0_pay8 (F := Ideal) v = v := shapeCast_self v _

end Cert.KernelIdeal.Point

end
-- ==== Proof.Stores.lean ====
/-
  What the body leaves in each of its four output buffers, read at a lane: the x-component of the field with the
  control computed from the lane's perturbed point, the y-component, and their negatives.  Each buffer is written
  by one store of the whole block, so its contents are that store's value.
-/
import proofs.«173381_j58901181497818_2_alg».proof.Proof.Gen.KernelIdeal.Frame
import proofs.«173381_j58901181497818_2_alg».proof.Proof.KernelPoint

noncomputable section

namespace Cert.KernelIdeal.Stores

open Idealize.ShloMosaic Idealize.ShloMosaic.ValueIdx Cert.KernelIdeal Cert.KernelIdeal.Gen Cert.GrnSpec Cert.KernelIdeal.Point
open scoped BigOperators

theorem hz : (![0, 0] : Fin 2 → Nat) = fun _ => 0 := funext fun a => by fin_cases a <;> rfl

/-- A lane of a one-row block. -/
theorem lane_of (y : S1x32768.Idx) : ∃ q : Fin 32768, y = ix2 (0 : Fin 1) q :=
  ⟨y 1, (eq_ix2 y).trans (congrArg (fun u : Fin 1 => ix2 u (y 1)) (Subsingleton.elim _ _))⟩

/-- The first output buffer at a lane: dx at the lane's point. -/
theorem out11_apply (x0 x1 x2 x3 : FVec Ideal S1x32768 .f32) (x4 x5 x6 : FVec Ideal S64x1 .f32) (x7 : FVec Ideal S64x64 .f32) (x8 x9 : FVec Ideal S64x1 .f32) (x10 : FVec Ideal S1x1 .f32) (y : S1x32768.Idx) :
    (out0_11 (F := Ideal) x0 x1 x2 x3 x4 x5 x6 x7 x8 x9 x10 y : EReal) = dX (weightsOfColumns x4 x5 x6 x7 x8 x9 x10) (x0 y) (x1 y) (x2 y) (x3 y) := by
  obtain ⟨q, rfl⟩ := lane_of y
  unfold out0_11
  rw [View.canon_unit_zero hz]
  simp only [View.ld_unit_zero (S := S1x32768) hz, View.ld_unit_zero (S := S64x1) hz, View.ld_unit_zero (S := S64x64) hz,
    View.ld_unit_zero (S := S1x1) hz, pay1_eq, pay2_eq, pay3_eq, pay4_eq, pay5_eq, pay6_eq, pay7_eq, pay8_eq]
  rw [fieldX_apply, control_apply x4 x5 x6 x7 x8 x9 x10 (k0_pay9 x0 x1 x2 x3 x4 x5 x6) (k0_pay10 x7) q
    (x0 (ix2 (0 : Fin 1) q) + x2 (ix2 (0 : Fin 1) q)) (x1 (ix2 (0 : Fin 1) q) + x3 (ix2 (0 : Fin 1) q))
    (fun k => first_layer_apply x0 x1 x2 x3 x4 x5 x6 k q) (fun _ _ => rfl)]
  rfl

/-- The second: dy. -/
theorem out12_apply (x0 x1 x2 x3 : FVec Ideal S1x32768 .f32) (x4 x5 x6 : FVec Ideal S64x1 .f32) (x7 : FVec Ideal S64x64 .f32) (x8 x9 : FVec Ideal S64x1 .f32) (x10 : FVec Ideal S1x1 .f32) (y : S1x32768.Idx) :
    (out0_12 (F := Ideal) x0 x1 x2 x3 x4 x5 x6 x7 x8 x9 x10 y : EReal) = fieldY (x0 y) (x1 y) := by
  unfold out0_12
  rw [View.canon_unit_zero hz]
  simp only [View.ld_unit_zero (S := S1x32768) hz, pay1_eq, pay2_eq]
  rw [fieldY_apply]
  rfl

/-- The third: −dx. -/
theorem out13_apply (x0 x1 x2 x3 : FVec Ideal S1x32768 .f32) (x4 x5 x6 : FVec Ideal S64x1 .f32) (x7 : FVec Ideal S64x64 .f32) (x8 x9 : FVec Ideal S64x1 .f32) (x10 : FVec Ideal S1x1 .f32) (y : S1x32768.Idx) :
    (out0_13 (F := Ideal) x0 x1 x2 x3 x4 x5 x6 x7 x8 x9 x10 y : EReal) = -dX (weightsOfColumns x4 x5 x6 x7 x8 x9 x10) (x0 y) (x1 y) (x2 y) (x3 y) := by
  rw [← out11_apply x0 x1 x2 x3 x4 x5 x6 x7 x8 x9 x10 y]
  unfold out0_13 out0_11
  rw [View.canon_unit_zero hz, View.canon_unit_zero hz, negX_apply, zero_word_sub]

/-- The fourth: −dy. -/
theorem out14_apply (x0 x1 x2 x3 : FVec Ideal S1x32768 .f32) (x4 x5 x6 : FVec Ideal S64x1 .f32) (x7 : FVec Ideal S64x64 .f32) (x8 x9 : FVec Ideal S64x1 .f32) (x10 : FVec Ideal S1x1 .f32) (y : S1x32768.Idx) :
    (out0_14 (F := Ideal) x0 x1 x2 x3 x4 x5 x6 x7 x8 x9 x10 y : EReal) = -fieldY (x0 y) (x1 y) := by
  rw [← out12_apply x0 x1 x2 x3 x4 x5 x6 x7 x8 x9 x10 y]
  unfold out0_14 out0_12
  rw [View.canon_unit_zero hz, View.canon_unit_zero hz, negY_apply, zero_word_sub]

end Cert.KernelIdeal.Stores

end
-- ==== Proof.Blocks.lean ====
/-
  From blocks to arrays.  The grid has 31 points; point t handles lanes t · 32768 … (t + 1) · 32768 − 1 of each of
  the four padded input rows and of the four output rows, and sees every parameter array whole.  So what point t
  writes back is block t of one function of the arrays the region found — the field of GrnSpec lane by lane — and,
  the 31 blocks tiling the row, each output array ends holding that function.
-/
import proofs.«173381_j58901181497818_2_alg».proof.Proof.Gen.KernelIdeal.Frame
import proofs.«173381_j58901181497818_2_alg».proof.Proof.Gen.KernelIdeal.Points
import proofs.«173381_j58901181497818_2_alg».proof.Proof.Stores
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen Cert.GrnSpec
open Idealize.ShloMosaic.Pipeline (Dat Cfg Window)

variable (m : (ℓ : Loc nD τ sig) → Buf (Elt Ideal) ℓ)

/-! ## The two lane-by-lane functions -/

/-- dx lane by lane over a padded row. -/
def laneX (A1 A3 A5 A7 : S1x1015808.Idx → EReal) (P : Weights) : S1x1015808.Idx → EReal :=
  fun i => dX P (A1 i) (A3 i) (A5 i) (A7 i)
/-- dy lane by lane. -/
def laneY (A1 A3 : S1x1015808.Idx → EReal) : S1x1015808.Idx → EReal := fun i => fieldY (A1 i) (A3 i)

/-- Lane y of the block of point t, as a lane of the padded row. -/
def laneIdx (t : Fin cfg0.N) (y : S1x32768.Idx) : S1x1015808.Idx :=
  ix2 (0 : Fin 1) ⟨t.val * 32768 + (y 1).val, by
    have h : t.val < 31 := lt_of_lt_of_eq t.isLt N_0
    have hy : (y 1).val < 32768 := (y 1).isLt
    omega⟩

/-! ## Where each window's block sits -/

theorem idx_row0 : ∀ t : Fin cfg0.N, win0_0.index t (0 : Fin 2) = 0 ∧ win0_0.index t (1 : Fin 2) = t.val :=
  (by decide +kernel : ∀ t : Fin grid0.N, _)
/-- Lane y of window 0's block at point t is lane t · 32768 + y of its array. -/
theorem emb_row0 (t : Fin cfg0.N) (y : S1x32768.Idx) : ((cfg0.win 0).blk t).view.emb y = laneIdx t y := by
  funext a; apply Fin.ext
  obtain ⟨e0, e1⟩ := idx_row0 t
  have h0 : (y 0).val < 1 := (y 0).isLt
  match a with
  | ⟨0, _⟩ => show win0_0.index t (0 : Fin 2) * 1 + 1 * (y 0).val = 0; omega
  | ⟨1, _⟩ => show win0_0.index t (1 : Fin 2) * 32768 + 1 * (y 1).val = t.val * 32768 + (y 1).val; omega

theorem idx_row1 : ∀ t : Fin cfg0.N, win0_1.index t (0 : Fin 2) = 0 ∧ win0_1.index t (1 : Fin 2) = t.val :=
  (by decide +kernel : ∀ t : Fin grid0.N, _)
/-- Lane y of window 1's block at point t is lane t · 32768 + y of its array. -/
theorem emb_row1 (t : Fin cfg0.N) (y : S1x32768.Idx) : ((cfg0.win 1).blk t).view.emb y = laneIdx t y := by
  funext a; apply Fin.ext
  obtain ⟨e0, e1⟩ := idx_row1 t
  have h0 : (y 0).val < 1 := (y 0).isLt
  match a with
  | ⟨0, _⟩ => show win0_1.index t (0 : Fin 2) * 1 + 1 * (y 0).val = 0; omega
  | ⟨1, _⟩ => show win0_1.index t (1 : Fin 2) * 32768 + 1 * (y 1).val = t.val * 32768 + (y 1).val; omega

theorem idx_row2 : ∀ t : Fin cfg0.N, win0_2.index t (0 : Fin 2) = 0 ∧ win0_2.index t (1 : Fin 2) = t.val :=
  (by decide +kernel : ∀ t : Fin grid0.N, _)
/-- Lane y of window 2's block at point t is lane t · 32768 + y of its array. -/
theorem emb_row2 (t : Fin cfg0.N) (y : S1x32768.Idx) : ((cfg0.win 2).blk t).view.emb y = laneIdx t y := by
  funext a; apply Fin.ext
  obtain ⟨e0, e1⟩ := idx_row2 t
  have h0 : (y 0).val < 1 := (y 0).isLt
  match a with
  | ⟨0, _⟩ => show win0_2.index t (0 : Fin 2) * 1 + 1 * (y 0).val = 0; omega
  | ⟨1, _⟩ => show win0_2.index t (1 : Fin 2) * 32768 + 1 * (y 1).val = t.val * 32768 + (y 1).val; omega

theorem idx_row3 : ∀ t : Fin cfg0.N, win0_3.index t (0 : Fin 2) = 0 ∧ win0_3.index t (1 : Fin 2) = t.val :=
  (by decide +kernel : ∀ t : Fin grid0.N, _)
/-- Lane y of window 3's block at point t is lane t · 32768 + y of its array. -/
theorem emb_row3 (t : Fin cfg0.N) (y : S1x32768.Idx) : ((cfg0.win 3).blk t).view.emb y = laneIdx t y := by
  funext a; apply Fin.ext
  obtain ⟨e0, e1⟩ := idx_row3 t
  have h0 : (y 0).val < 1 := (y 0).isLt
  match a with
  | ⟨0, _⟩ => show win0_3.index t (0 : Fin 2) * 1 + 1 * (y 0).val = 0; omega
  | ⟨1, _⟩ => show win0_3.index t (1 : Fin 2) * 32768 + 1 * (y 1).val = t.val * 32768 + (y 1).val; omega

theorem idx_row11 : ∀ t : Fin cfg0.N, win0_11.index t (0 : Fin 2) = 0 ∧ win0_11.index t (1 : Fin 2) = t.val :=
  (by decide +kernel : ∀ t : Fin grid0.N, _)
/-- Lane y of window 11's block at point t is lane t · 32768 + y of its array. -/
theorem emb_row11 (t : Fin cfg0.N) (y : S1x32768.Idx) : ((cfg0.win 11).blk t).view.emb y = laneIdx t y := by
  funext a; apply Fin.ext
  obtain ⟨e0, e1⟩ := idx_row11 t
  have h0 : (y 0).val < 1 := (y 0).isLt
  match a with
  | ⟨0, _⟩ => show win0_11.index t (0 : Fin 2) * 1 + 1 * (y 0).val = 0; omega
  | ⟨1, _⟩ => show win0_11.index t (1 : Fin 2) * 32768 + 1 * (y 1).val = t.val * 32768 + (y 1).val; omega

theorem idx_row12 : ∀ t : Fin cfg0.N, win0_12.index t (0 : Fin 2) = 0 ∧ win0_12.index t (1 : Fin 2) = t.val :=
  (by decide +kernel : ∀ t : Fin grid0.N, _)
/-- Lane y of window 12's block at point t is lane t · 32768 + y of its array. -/
theorem emb_row12 (t : Fin cfg0.N) (y : S1x32768.Idx) : ((cfg0.win 12).blk t).view.emb y = laneIdx t y := by
  funext a; apply Fin.ext
  obtain ⟨e0, e1⟩ := idx_row12 t
  have h0 : (y 0).val < 1 := (y 0).isLt
  match a with
  | ⟨0, _⟩ => show win0_12.index t (0 : Fin 2) * 1 + 1 * (y 0).val = 0; omega
  | ⟨1, _⟩ => show win0_12.index t (1 : Fin 2) * 32768 + 1 * (y 1).val = t.val * 32768 + (y 1).val; omega

theorem idx_row13 : ∀ t : Fin cfg0.N, win0_13.index t (0 : Fin 2) = 0 ∧ win0_13.index t (1 : Fin 2) = t.val :=
  (by decide +kernel : ∀ t : Fin grid0.N, _)
/-- Lane y of window 13's block at point t is lane t · 32768 + y of its array. -/
theorem emb_row13 (t : Fin cfg0.N) (y : S1x32768.Idx) : ((cfg0.win 13).blk t).view.emb y = laneIdx t y := by
  funext a; apply Fin.ext
  obtain ⟨e0, e1⟩ := idx_row13 t
  have h0 : (y 0).val < 1 := (y 0).isLt
  match a with
  | ⟨0, _⟩ => show win0_13.index t (0 : Fin 2) * 1 + 1 * (y 0).val = 0; omega
  | ⟨1, _⟩ => show win0_13.index t (1 : Fin 2) * 32768 + 1 * (y 1).val = t.val * 32768 + (y 1).val; omega

theorem idx_row14 : ∀ t : Fin cfg0.N, win0_14.index t (0 : Fin 2) = 0 ∧ win0_14.index t (1 : Fin 2) = t.val :=
  (by decide +kernel : ∀ t : Fin grid0.N, _)
/-- Lane y of window 14's block at point t is lane t · 32768 + y of its array. -/
theorem emb_row14 (t : Fin cfg0.N) (y : S1x32768.Idx) : ((cfg0.win 14).blk t).view.emb y = laneIdx t y := by
  funext a; apply Fin.ext
  obtain ⟨e0, e1⟩ := idx_row14 t
  have h0 : (y 0).val < 1 := (y 0).isLt
  match a with
  | ⟨0, _⟩ => show win0_14.index t (0 : Fin 2) * 1 + 1 * (y 0).val = 0; omega
  | ⟨1, _⟩ => show win0_14.index t (1 : Fin 2) * 32768 + 1 * (y 1).val = t.val * 32768 + (y 1).val; omega

/-! ## The input blocks, read -/

theorem iblk0_apply (c : Dev nD) (t : Fin cfg0.N) (y : S1x32768.Idx) : iblk m c 0 t y = V m c main_v1 (laneIdx t y) := by
  show V m c main_v1 (((cfg0.win 0).blk t).view.emb y) = V m c main_v1 (laneIdx t y)
  rw [emb_row0]

theorem iblk1_apply (c : Dev nD) (t : Fin cfg0.N) (y : S1x32768.Idx) : iblk m c 1 t y = V m c main_v3 (laneIdx t y) := by
  show V m c main_v3 (((cfg0.win 1).blk t).view.emb y) = V m c main_v3 (laneIdx t y)
  rw [emb_row1]

theorem iblk2_apply (c : Dev nD) (t : Fin cfg0.N) (y : S1x32768.Idx) : iblk m c 2 t y = V m c main_v5 (laneIdx t y) := by
  show V m c main_v5 (((cfg0.win 2).blk t).view.emb y) = V m c main_v5 (laneIdx t y)
  rw [emb_row2]

theorem iblk3_apply (c : Dev nD) (t : Fin cfg0.N) (y : S1x32768.Idx) : iblk m c 3 t y = V m c main_v7 (laneIdx t y) := by
  show V m c main_v7 (((cfg0.win 3).blk t).view.emb y) = V m c main_v7 (laneIdx t y)
  rw [emb_row3]

theorem idx_whole4 : ∀ t : Fin cfg0.N, win0_4.index t (0 : Fin 2) = 0 ∧ win0_4.index t (1 : Fin 2) = 0 :=
  (by decide +kernel : ∀ t : Fin grid0.N, _)
theorem iblk4_eq (c : Dev nD) (t : Fin cfg0.N) : (iblk m c 4 t : S64x1.Idx → EReal) = V m c main_v10 := by
  funext y
  show V m c main_v10 (((cfg0.win 4).blk t).view.emb y) = V m c main_v10 y
  refine congrArg (V m c main_v10) (funext fun a => Fin.ext ?_)
  obtain ⟨e0, e1⟩ := idx_whole4 t
  match a with
  | ⟨0, _⟩ => show win0_4.index t (0 : Fin 2) * 64 + 1 * (y 0).val = (y 0).val; omega
  | ⟨1, _⟩ => show win0_4.index t (1 : Fin 2) * 1 + 1 * (y 1).val = (y 1).val; omega

theorem idx_whole5 : ∀ t : Fin cfg0.N, win0_5.index t (0 : Fin 2) = 0 ∧ win0_5.index t (1 : Fin 2) = 0 :=
  (by decide +kernel : ∀ t : Fin grid0.N, _)
theorem iblk5_eq (c : Dev nD) (t : Fin cfg0.N) : (iblk m c 5 t : S64x1.Idx → EReal) = V m c main_v13 := by
  funext y
  show V m c main_v13 (((cfg0.win 5).blk t).view.emb y) = V m c main_v13 y
  refine congrArg (V m c main_v13) (funext fun a => Fin.ext ?_)
  obtain ⟨e0, e1⟩ := idx_whole5 t
  match a with
  | ⟨0, _⟩ => show win0_5.index t (0 : Fin 2) * 64 + 1 * (y 0).val = (y 0).val; omega
  | ⟨1, _⟩ => show win0_5.index t (1 : Fin 2) * 1 + 1 * (y 1).val = (y 1).val; omega

theorem idx_whole6 : ∀ t : Fin cfg0.N, win0_6.index t (0 : Fin 2) = 0 ∧ win0_6.index t (1 : Fin 2) = 0 :=
  (by decide +kernel : ∀ t : Fin grid0.N, _)
theorem iblk6_eq (c : Dev nD) (t : Fin cfg0.N) : (iblk m c 6 t : S64x1.Idx → EReal) = V m c main_v14 := by
  funext y
  show V m c main_v14 (((cfg0.win 6).blk t).view.emb y) = V m c main_v14 y
  refine congrArg (V m c main_v14) (funext fun a => Fin.ext ?_)
  obtain ⟨e0, e1⟩ := idx_whole6 t
  match a with
  | ⟨0, _⟩ => show win0_6.index t (0 : Fin 2) * 64 + 1 * (y 0).val = (y 0).val; omega
  | ⟨1, _⟩ => show win0_6.index t (1 : Fin 2) * 1 + 1 * (y 1).val = (y 1).val; omega

theorem idx_whole7 : ∀ t : Fin cfg0.N, win0_7.index t (0 : Fin 2) = 0 ∧ win0_7.index t (1 : Fin 2) = 0 :=
  (by decide +kernel : ∀ t : Fin grid0.N, _)
theorem iblk7_eq (c : Dev nD) (t : Fin cfg0.N) : (iblk m c 7 t : S64x64.Idx → EReal) = V m c main_arg6 := by
  funext y
  show V m c main_arg6 (((cfg0.win 7).blk t).view.emb y) = V m c main_arg6 y
  refine congrArg (V m c main_arg6) (funext fun a => Fin.ext ?_)
  obtain ⟨e0, e1⟩ := idx_whole7 t
  match a with
  | ⟨0, _⟩ => show win0_7.index t (0 : Fin 2) * 64 + 1 * (y 0).val = (y 0).val; omega
  | ⟨1, _⟩ => show win0_7.index t (1 : Fin 2) * 64 + 1 * (y 1).val = (y 1).val; omega

theorem idx_whole8 : ∀ t : Fin cfg0.N, win0_8.index t (0 : Fin 2) = 0 ∧ win0_8.index t (1 : Fin 2) = 0 :=
  (by decide +kernel : ∀ t : Fin grid0.N, _)
theorem iblk8_eq (c : Dev nD) (t : Fin cfg0.N) : (iblk m c 8 t : S64x1.Idx → EReal) = V m c main_v15 := by
  funext y
  show V m c main_v15 (((cfg0.win 8).blk t).view.emb y) = V m c main_v15 y
  refine congrArg (V m c main_v15) (funext fun a => Fin.ext ?_)
  obtain ⟨e0, e1⟩ := idx_whole8 t
  match a with
  | ⟨0, _⟩ => show win0_8.index t (0 : Fin 2) * 64 + 1 * (y 0).val = (y 0).val; omega
  | ⟨1, _⟩ => show win0_8.index t (1 : Fin 2) * 1 + 1 * (y 1).val = (y 1).val; omega

theorem idx_whole9 : ∀ t : Fin cfg0.N, win0_9.index t (0 : Fin 2) = 0 ∧ win0_9.index t (1 : Fin 2) = 0 :=
  (by decide +kernel : ∀ t : Fin grid0.N, _)
theorem iblk9_eq (c : Dev nD) (t : Fin cfg0.N) : (iblk m c 9 t : S64x1.Idx → EReal) = V m c main_v17 := by
  funext y
  show V m c main_v17 (((cfg0.win 9).blk t).view.emb y) = V m c main_v17 y
  refine congrArg (V m c main_v17) (funext fun a => Fin.ext ?_)
  obtain ⟨e0, e1⟩ := idx_whole9 t
  match a with
  | ⟨0, _⟩ => show win0_9.index t (0 : Fin 2) * 64 + 1 * (y 0).val = (y 0).val; omega
  | ⟨1, _⟩ => show win0_9.index t (1 : Fin 2) * 1 + 1 * (y 1).val = (y 1).val; omega

theorem idx_whole10 : ∀ t : Fin cfg0.N, win0_10.index t (0 : Fin 2) = 0 ∧ win0_10.index t (1 : Fin 2) = 0 :=
  (by decide +kernel : ∀ t : Fin grid0.N, _)
theorem iblk10_eq (c : Dev nD) (t : Fin cfg0.N) : (iblk m c 10 t : S1x1.Idx → EReal) = V m c main_v18 := by
  funext y
  show V m c main_v18 (((cfg0.win 10).blk t).view.emb y) = V m c main_v18 y
  refine congrArg (V m c main_v18) (funext fun a => Fin.ext ?_)
  obtain ⟨e0, e1⟩ := idx_whole10 t
  match a with
  | ⟨0, _⟩ => show win0_10.index t (0 : Fin 2) * 1 + 1 * (y 0).val = (y 0).val; omega
  | ⟨1, _⟩ => show win0_10.index t (1 : Fin 2) * 1 + 1 * (y 1).val = (y 1).val; omega

/-! ## The output blocks, the cover, the arrays after the run -/

/-- What point t writes back through output window 11 is block t of one function of the arrays the region found. -/
theorem flushed11_eq (c : Dev nD) (t : Fin cfg0.N) :
    (dats m 0 c).flushed 11 t = ((cfg0.win 11).blk t).view.read (Elt Ideal) (laneX (V m c main_v1) (V m c main_v3) (V m c main_v5) (V m c main_v7) (weightsOfColumns (V m c main_v10) (V m c main_v13) (V m c main_v14) (V m c main_arg6) (V m c main_v15) (V m c main_v17) (V m c main_v18))) := by
  show (cfg0.win 11).cut (grid0.coords t) ((dats m 0 c).after 11 t) = _
  rw [after0_11]
  funext y
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = (laneX (V m c main_v1) (V m c main_v3) (V m c main_v5) (V m c main_v7) (weightsOfColumns (V m c main_v10) (V m c main_v13) (V m c main_v14) (V m c main_arg6) (V m c main_v15) (V m c main_v17) (V m c main_v18))) (((cfg0.win 11).blk t).view.emb y)
  rw [emb_row11, iblk4_eq m c t, iblk5_eq m c t, iblk6_eq m c t, iblk7_eq m c t, iblk8_eq m c t, iblk9_eq m c t, iblk10_eq m c t]
  refine (Stores.out11_apply (iblk m c 0 t) (iblk m c 1 t) (iblk m c 2 t) (iblk m c 3 t) (V m c main_v10) (V m c main_v13) (V m c main_v14)
    (V m c main_arg6) (V m c main_v15) (V m c main_v17) (V m c main_v18) y).trans ?_
  rw [iblk0_apply, iblk1_apply, iblk2_apply, iblk3_apply]
  rfl

theorem mem_blk11 (t : Fin cfg0.N) (i : S1x1015808.Idx) :
    i ∈ ((cfg0.win 11).blk t).view.set ↔ ∀ a : Fin 2, win0_11.index t a * S1x32768.size a ≤ (i a).val ∧ (i a).val < win0_11.index t a * S1x32768.size a + S1x32768.size a := by
  show i ∈ ((View.whole main_v19_0).slice (win0_11.rect t)).set ↔ _
  rw [View.set_slice_whole, Rect.mem_set_unit]
  exact Iff.rfl

/-- The 31 blocks tile the padded row: lane l lies in the block of point l / 32768. -/
theorem cover11 (i : S1x1015808.Idx) : ∃ t : Fin cfg0.N, (cfg0.win 11).flush t = true ∧ i ∈ ((cfg0.win 11).blk t).view.set := by
  have h1 : (i 1).val < 1015808 := (i 1).isLt
  have h0 : (i 0).val < 1 := (i 0).isLt
  have hN : cfg0.N = 31 := N_0
  have ht : (i 1).val / 32768 < cfg0.N := by rw [hN]; omega
  refine ⟨⟨(i 1).val / 32768, ht⟩, flush0_11 _, ?_⟩
  rw [mem_blk11]
  obtain ⟨e0, e1⟩ := idx_row11 ⟨(i 1).val / 32768, ht⟩
  intro a
  match a with
  | ⟨0, _⟩ =>
    show win0_11.index ⟨(i 1).val / 32768, ht⟩ (0 : Fin 2) * 1 ≤ (i 0).val ∧ (i 0).val < win0_11.index ⟨(i 1).val / 32768, ht⟩ (0 : Fin 2) * 1 + 1
    omega
  | ⟨1, _⟩ =>
    show win0_11.index ⟨(i 1).val / 32768, ht⟩ (1 : Fin 2) * 32768 ≤ (i 1).val ∧ (i 1).val < win0_11.index ⟨(i 1).val / 32768, ht⟩ (1 : Fin 2) * 32768 + 32768
    have e1' : win0_11.index ⟨(i 1).val / 32768, ht⟩ (1 : Fin 2) = (i 1).val / 32768 := e1
    omega

/-- The array of output window 11 after the run. -/
theorem final11 (c : Dev nD) : (dats m 0 c).arrAt 11 cfg0.N = (laneX (V m c main_v1) (V m c main_v3) (V m c main_v5) (V m c main_v7) (weightsOfColumns (V m c main_v10) (V m c main_v13) (V m c main_v14) (V m c main_arg6) (V m c main_v15) (V m c main_v17) (V m c main_v18))) :=
  (dats m 0 c).arrAt_eq_of_cover 11 _ (fun t _ => flushed11_eq m c t) cover11

/-- What point t writes back through output window 12 is block t of one function of the arrays the region found. -/
theorem flushed12_eq (c : Dev nD) (t : Fin cfg0.N) :
    (dats m 0 c).flushed 12 t = ((cfg0.win 12).blk t).view.read (Elt Ideal) (laneY (V m c main_v1) (V m c main_v3)) := by
  show (cfg0.win 12).cut (grid0.coords t) ((dats m 0 c).after 12 t) = _
  rw [after0_12]
  funext y
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = (laneY (V m c main_v1) (V m c main_v3)) (((cfg0.win 12).blk t).view.emb y)
  rw [emb_row12, iblk4_eq m c t, iblk5_eq m c t, iblk6_eq m c t, iblk7_eq m c t, iblk8_eq m c t, iblk9_eq m c t, iblk10_eq m c t]
  refine (Stores.out12_apply (iblk m c 0 t) (iblk m c 1 t) (iblk m c 2 t) (iblk m c 3 t) (V m c main_v10) (V m c main_v13) (V m c main_v14)
    (V m c main_arg6) (V m c main_v15) (V m c main_v17) (V m c main_v18) y).trans ?_
  rw [iblk0_apply, iblk1_apply]
  rfl

theorem mem_blk12 (t : Fin cfg0.N) (i : S1x1015808.Idx) :
    i ∈ ((cfg0.win 12).blk t).view.set ↔ ∀ a : Fin 2, win0_12.index t a * S1x32768.size a ≤ (i a).val ∧ (i a).val < win0_12.index t a * S1x32768.size a + S1x32768.size a := by
  show i ∈ ((View.whole main_v19_1).slice (win0_12.rect t)).set ↔ _
  rw [View.set_slice_whole, Rect.mem_set_unit]
  exact Iff.rfl

/-- The 31 blocks tile the padded row: lane l lies in the block of point l / 32768. -/
theorem cover12 (i : S1x1015808.Idx) : ∃ t : Fin cfg0.N, (cfg0.win 12).flush t = true ∧ i ∈ ((cfg0.win 12).blk t).view.set := by
  have h1 : (i 1).val < 1015808 := (i 1).isLt
  have h0 : (i 0).val < 1 := (i 0).isLt
  have hN : cfg0.N = 31 := N_0
  have ht : (i 1).val / 32768 < cfg0.N := by rw [hN]; omega
  refine ⟨⟨(i 1).val / 32768, ht⟩, flush0_12 _, ?_⟩
  rw [mem_blk12]
  obtain ⟨e0, e1⟩ := idx_row12 ⟨(i 1).val / 32768, ht⟩
  intro a
  match a with
  | ⟨0, _⟩ =>
    show win0_12.index ⟨(i 1).val / 32768, ht⟩ (0 : Fin 2) * 1 ≤ (i 0).val ∧ (i 0).val < win0_12.index ⟨(i 1).val / 32768, ht⟩ (0 : Fin 2) * 1 + 1
    omega
  | ⟨1, _⟩ =>
    show win0_12.index ⟨(i 1).val / 32768, ht⟩ (1 : Fin 2) * 32768 ≤ (i 1).val ∧ (i 1).val < win0_12.index ⟨(i 1).val / 32768, ht⟩ (1 : Fin 2) * 32768 + 32768
    have e1' : win0_12.index ⟨(i 1).val / 32768, ht⟩ (1 : Fin 2) = (i 1).val / 32768 := e1
    omega

/-- The array of output window 12 after the run. -/
theorem final12 (c : Dev nD) : (dats m 0 c).arrAt 12 cfg0.N = (laneY (V m c main_v1) (V m c main_v3)) :=
  (dats m 0 c).arrAt_eq_of_cover 12 _ (fun t _ => flushed12_eq m c t) cover12

/-- What point t writes back through output window 13 is block t of one function of the arrays the region found. -/
theorem flushed13_eq (c : Dev nD) (t : Fin cfg0.N) :
    (dats m 0 c).flushed 13 t = ((cfg0.win 13).blk t).view.read (Elt Ideal) (fun i => -laneX (V m c main_v1) (V m c main_v3) (V m c main_v5) (V m c main_v7) (weightsOfColumns (V m c main_v10) (V m c main_v13) (V m c main_v14) (V m c main_arg6) (V m c main_v15) (V m c main_v17) (V m c main_v18)) i) := by
  show (cfg0.win 13).cut (grid0.coords t) ((dats m 0 c).after 13 t) = _
  rw [after0_13]
  funext y
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = (fun i => -laneX (V m c main_v1) (V m c main_v3) (V m c main_v5) (V m c main_v7) (weightsOfColumns (V m c main_v10) (V m c main_v13) (V m c main_v14) (V m c main_arg6) (V m c main_v15) (V m c main_v17) (V m c main_v18)) i) (((cfg0.win 13).blk t).view.emb y)
  rw [emb_row13, iblk4_eq m c t, iblk5_eq m c t, iblk6_eq m c t, iblk7_eq m c t, iblk8_eq m c t, iblk9_eq m c t, iblk10_eq m c t]
  refine (Stores.out13_apply (iblk m c 0 t) (iblk m c 1 t) (iblk m c 2 t) (iblk m c 3 t) (V m c main_v10) (V m c main_v13) (V m c main_v14)
    (V m c main_arg6) (V m c main_v15) (V m c main_v17) (V m c main_v18) y).trans ?_
  rw [iblk0_apply, iblk1_apply, iblk2_apply, iblk3_apply]
  rfl

theorem mem_blk13 (t : Fin cfg0.N) (i : S1x1015808.Idx) :
    i ∈ ((cfg0.win 13).blk t).view.set ↔ ∀ a : Fin 2, win0_13.index t a * S1x32768.size a ≤ (i a).val ∧ (i a).val < win0_13.index t a * S1x32768.size a + S1x32768.size a := by
  show i ∈ ((View.whole main_v19_2).slice (win0_13.rect t)).set ↔ _
  rw [View.set_slice_whole, Rect.mem_set_unit]
  exact Iff.rfl

/-- The 31 blocks tile the padded row: lane l lies in the block of point l / 32768. -/
theorem cover13 (i : S1x1015808.Idx) : ∃ t : Fin cfg0.N, (cfg0.win 13).flush t = true ∧ i ∈ ((cfg0.win 13).blk t).view.set := by
  have h1 : (i 1).val < 1015808 := (i 1).isLt
  have h0 : (i 0).val < 1 := (i 0).isLt
  have hN : cfg0.N = 31 := N_0
  have ht : (i 1).val / 32768 < cfg0.N := by rw [hN]; omega
  refine ⟨⟨(i 1).val / 32768, ht⟩, flush0_13 _, ?_⟩
  rw [mem_blk13]
  obtain ⟨e0, e1⟩ := idx_row13 ⟨(i 1).val / 32768, ht⟩
  intro a
  match a with
  | ⟨0, _⟩ =>
    show win0_13.index ⟨(i 1).val / 32768, ht⟩ (0 : Fin 2) * 1 ≤ (i 0).val ∧ (i 0).val < win0_13.index ⟨(i 1).val / 32768, ht⟩ (0 : Fin 2) * 1 + 1
    omega
  | ⟨1, _⟩ =>
    show win0_13.index ⟨(i 1).val / 32768, ht⟩ (1 : Fin 2) * 32768 ≤ (i 1).val ∧ (i 1).val < win0_13.index ⟨(i 1).val / 32768, ht⟩ (1 : Fin 2) * 32768 + 32768
    have e1' : win0_13.index ⟨(i 1).val / 32768, ht⟩ (1 : Fin 2) = (i 1).val / 32768 := e1
    omega

/-- The array of output window 13 after the run. -/
theorem final13 (c : Dev nD) : (dats m 0 c).arrAt 13 cfg0.N = (fun i => -laneX (V m c main_v1) (V m c main_v3) (V m c main_v5) (V m c main_v7) (weightsOfColumns (V m c main_v10) (V m c main_v13) (V m c main_v14) (V m c main_arg6) (V m c main_v15) (V m c main_v17) (V m c main_v18)) i) :=
  (dats m 0 c).arrAt_eq_of_cover 13 _ (fun t _ => flushed13_eq m c t) cover13

/-- What point t writes back through output window 14 is block t of one function of the arrays the region found. -/
theorem flushed14_eq (c : Dev nD) (t : Fin cfg0.N) :
    (dats m 0 c).flushed 14 t = ((cfg0.win 14).blk t).view.read (Elt Ideal) (fun i => -laneY (V m c main_v1) (V m c main_v3) i) := by
  show (cfg0.win 14).cut (grid0.coords t) ((dats m 0 c).after 14 t) = _
  rw [after0_14]
  funext y
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y = (fun i => -laneY (V m c main_v1) (V m c main_v3) i) (((cfg0.win 14).blk t).view.emb y)
  rw [emb_row14, iblk4_eq m c t, iblk5_eq m c t, iblk6_eq m c t, iblk7_eq m c t, iblk8_eq m c t, iblk9_eq m c t, iblk10_eq m c t]
  refine (Stores.out14_apply (iblk m c 0 t) (iblk m c 1 t) (iblk m c 2 t) (iblk m c 3 t) (V m c main_v10) (V m c main_v13) (V m c main_v14)
    (V m c main_arg6) (V m c main_v15) (V m c main_v17) (V m c main_v18) y).trans ?_
  rw [iblk0_apply, iblk1_apply]
  rfl

theorem mem_blk14 (t : Fin cfg0.N) (i : S1x1015808.Idx) :
    i ∈ ((cfg0.win 14).blk t).view.set ↔ ∀ a : Fin 2, win0_14.index t a * S1x32768.size a ≤ (i a).val ∧ (i a).val < win0_14.index t a * S1x32768.size a + S1x32768.size a := by
  show i ∈ ((View.whole main_v19_3).slice (win0_14.rect t)).set ↔ _
  rw [View.set_slice_whole, Rect.mem_set_unit]
  exact Iff.rfl

/-- The 31 blocks tile the padded row: lane l lies in the block of point l / 32768. -/
theorem cover14 (i : S1x1015808.Idx) : ∃ t : Fin cfg0.N, (cfg0.win 14).flush t = true ∧ i ∈ ((cfg0.win 14).blk t).view.set := by
  have h1 : (i 1).val < 1015808 := (i 1).isLt
  have h0 : (i 0).val < 1 := (i 0).isLt
  have hN : cfg0.N = 31 := N_0
  have ht : (i 1).val / 32768 < cfg0.N := by rw [hN]; omega
  refine ⟨⟨(i 1).val / 32768, ht⟩, flush0_14 _, ?_⟩
  rw [mem_blk14]
  obtain ⟨e0, e1⟩ := idx_row14 ⟨(i 1).val / 32768, ht⟩
  intro a
  match a with
  | ⟨0, _⟩ =>
    show win0_14.index ⟨(i 1).val / 32768, ht⟩ (0 : Fin 2) * 1 ≤ (i 0).val ∧ (i 0).val < win0_14.index ⟨(i 1).val / 32768, ht⟩ (0 : Fin 2) * 1 + 1
    omega
  | ⟨1, _⟩ =>
    show win0_14.index ⟨(i 1).val / 32768, ht⟩ (1 : Fin 2) * 32768 ≤ (i 1).val ∧ (i 1).val < win0_14.index ⟨(i 1).val / 32768, ht⟩ (1 : Fin 2) * 32768 + 32768
    have e1' : win0_14.index ⟨(i 1).val / 32768, ht⟩ (1 : Fin 2) = (i 1).val / 32768 := e1
    omega

/-- The array of output window 14 after the run. -/
theorem final14 (c : Dev nD) : (dats m 0 c).arrAt 14 cfg0.N = (fun i => -laneY (V m c main_v1) (V m c main_v3) i) :=
  (dats m 0 c).arrAt_eq_of_cover 14 _ (fun t _ => flushed14_eq m c t) cover14

end Cert.KernelIdeal.Blocks

end
-- ==== Proof.LibPaddedRow.lean ====
/-
  A vector kept as one padded row.

  Programs that work on a long vector in blocks of lanes lay it as a single row [1, n], pad the row on the right up
  to a whole number of blocks [1, N], and afterwards keep the first n lanes of a result row and lay them back as a
  vector.  Read at an index these two passages are the identity on the first n lanes, for any extents and any element
  type:

  * `paddedRow_apply` — the row [1, n] of a vector, padded on the right to [1, N] with any value, reads at a lane
    below n the vector's entry;
  * `firstLanes_apply` — the first n lanes of a row [1, N], cut out and laid as a vector [n], read at i the row's lane i.
-/
import Idealize.ShloMosaic.Lib.ValueIdx
import Idealize.ShloMosaic.Lib.ValueLayout
import Idealize.ShloMosaic.Lib.Pipeline.Value
import Idealize.ShloMosaic.Lib.KernelVsHost

noncomputable section

namespace Cert.LibPaddedRow

open Idealize.ShloMosaic Idealize.ShloMosaic.ValueIdx

variable {α : Type}

/-- A vector laid as the row [1, n] and padded on the right to [1, N] reads, at a lane `i'` below `n`, the vector's
    entry there, whatever the padding value. -/
theorem paddedRow_apply {n N p : ℕ} (x : (⟨1, ![n]⟩ : Shape).Idx → α) {u : Shape} (v : u.Idx → α)
    (hc : (⟨1, ![n]⟩ : Shape).ShapeCasts ⟨2, ![1, n]⟩)
    (hp : (⟨2, ![1, n]⟩ : Shape).Pads ![0, 0] ![0, p] ![0, 0] ⟨2, ![1, N]⟩) (hu : 0 < u.numel)
    (i : Fin n) (i' : Fin N) (h : i'.val = i.val) :
    pad ⟨2, ![1, N]⟩ ![0, 0] ![0, p] ![0, 0] (shapeCast ⟨2, ![1, n]⟩ x hc) v hp hu (ix2 (0 : Fin 1) i') = x (ix1 i) := by
  refine (pad_apply_of_inside ![0, 0] ![0, p] ![0, 0] _ v hp hu (ix2 (0 : Fin 1) i') (ix2 (0 : Fin 1) i) fun a => ?_).trans
    (shapeCast_a_1a_apply x hc 0 i)
  match a with
  | ⟨0, _⟩ => rfl
  | ⟨1, _⟩ => show i'.val = 0 + i.val * (0 + 1); omega

/-- The first `n` lanes of a row [1, N], cut out and laid as a vector, read at `i` the row's lane `i`. -/
theorem firstLanes_apply {n N : ℕ} (A : (⟨2, ![1, N]⟩ : Shape).Idx → α)
    (hs : (⟨2, ![1, N]⟩ : Shape).Slices ![0, 0] ⟨2, ![1, n]⟩) (hc : (⟨2, ![1, n]⟩ : Shape).ShapeCasts ⟨1, ![n]⟩)
    (i : Fin n) (i' : Fin N) (h : i'.val = i.val) :
    shapeCast ⟨1, ![n]⟩ (extractStridedSlice ⟨2, ![1, n]⟩ ![0, 0] A hs) hc (ix1 i) = A (ix2 (0 : Fin 1) i') := by
  refine (shapeCast_1a_a_apply _ hc i).trans ?_
  exact extractStridedSlice_apply ![0, 0] A hs (ix2 (0 : Fin 1) i) (ix2 (0 : Fin 1) i') fun a => by
    match a with
    | ⟨0, _⟩ => rfl
    | ⟨1, _⟩ => show i'.val = 0 + i.val; omega

end Cert.LibPaddedRow

end
-- ==== Proof.Entry.lean ====
/-
  What the region finds in its eleven input arrays.  Before the launch the host lays each of the four
  million-point inputs as one row [1, 1000000] and pads it on the right to 31 blocks of 32768 lanes; it cuts the two
  columns of W1 apart and stands every parameter vector up as a 64 × 1 column (W3's one row too), the scalar bias
  as a 1 × 1 array; W2 goes in as it is.  Read at an index, each of these is an entry of an argument.
-/
import proofs.«173381_j58901181497818_2_alg».proof.Proof.Gen.KernelIdeal.Frame
import proofs.«173381_j58901181497818_2_alg».proof.Proof.GrnSpec
import proofs.«173381_j58901181497818_2_alg».proof.Proof.LibRowwise
import proofs.«173381_j58901181497818_2_alg».proof.Proof.LibPaddedRow
import Idealize.ShloMosaic.Lib.StableHlo.Run
import Idealize.ShloMosaic.Lib.Pipeline.Value
import Idealize.ShloMosaic.Lib.ValueLayout
import Idealize.ShloMosaic.Lib.KernelVsHost

noncomputable section

namespace Cert.KernelIdeal.Entry

open Idealize.ShloMosaic Idealize.ShloMosaic.TcCoe Idealize.ShloMosaic.ValueIdx Idealize.SL.Sem Cert.KernelIdeal Cert.KernelIdeal.Gen
open Idealize.ShloMosaic.StableHlo Cert.GrnSpec

variable (m : (ℓ : Loc nD τ sig) → Buf (Elt Ideal) ℓ)

/-- Opens the fold of the host operations before the region at one buffer. -/
local macro "open_entry" : tactic => `(tactic| (
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl))

/-! ## The four padded rows -/

/-- A vector laid as one row and padded on the right reads, at a lane below the vector's length, the vector's entry. -/
theorem padded_apply (x : S1000000.Idx → EReal) (v : S_.Idx → EReal) (n : Fin 1000000) (n' : Fin 1015808) (hn : n'.val = n.val) :
    pad S1x1015808 ![0, 0] ![0, 15808] ![0, 0] (shapeCast S1x1000000 x shapeCasts_S1000000_S1x1000000) v
        pads_S1x1000000_S1x1015808_000_0158080 h_S_ (ix2 (0 : Fin 1) n') = x (ix1 n) := by
  exact LibPaddedRow.paddedRow_apply x v shapeCasts_S1000000_S1x1000000 pads_S1x1000000_S1x1015808_000_0158080 h_S_ n n' hn

/-- The region finds in `v1` the argument `main_arg0` laid as one row and padded on the right. -/
theorem V_v1 (c : Dev nD) : (V m c main_v1 : S1x1015808.Idx → EReal)
    = pad S1x1015808 ![0, 0] ![0, 15808] ![0, 0] (shapeCast S1x1000000 (m ((c : Thread nD τ).loc main_arg0)) shapeCasts_S1000000_S1x1000000)
        (sitofp (F := Ideal) .f32 (constantI S_ 32 0#32)) pads_S1x1000000_S1x1015808_000_0158080 h_S_ := by
  open_entry

/-- So below the millionth lane it holds the argument's entry. -/
theorem V_v1_apply (c : Dev nD) (n : Fin 1000000) (n' : Fin 1015808) (hn : n'.val = n.val) :
    V m c main_v1 (ix2 (0 : Fin 1) n') = m ((c : Thread nD τ).loc main_arg0) (ix1 n) := by
  rw [V_v1 m c]; exact padded_apply _ _ n n' hn

/-- The region finds in `v3` the argument `main_arg1` laid as one row and padded on the right. -/
theorem V_v3 (c : Dev nD) : (V m c main_v3 : S1x1015808.Idx → EReal)
    = pad S1x1015808 ![0, 0] ![0, 15808] ![0, 0] (shapeCast S1x1000000 (m ((c : Thread nD τ).loc main_arg1)) shapeCasts_S1000000_S1x1000000)
        (sitofp (F := Ideal) .f32 (constantI S_ 32 0#32)) pads_S1x1000000_S1x1015808_000_0158080 h_S_ := by
  open_entry

/-- So below the millionth lane it holds the argument's entry. -/
theorem V_v3_apply (c : Dev nD) (n : Fin 1000000) (n' : Fin 1015808) (hn : n'.val = n.val) :
    V m c main_v3 (ix2 (0 : Fin 1) n') = m ((c : Thread nD τ).loc main_arg1) (ix1 n) := by
  rw [V_v3 m c]; exact padded_apply _ _ n n' hn

/-- The region finds in `v5` the argument `main_arg2` laid as one row and padded on the right. -/
theorem V_v5 (c : Dev nD) : (V m c main_v5 : S1x1015808.Idx → EReal)
    = pad S1x1015808 ![0, 0] ![0, 15808] ![0, 0] (shapeCast S1x1000000 (m ((c : Thread nD τ).loc main_arg2)) shapeCasts_S1000000_S1x1000000)
        (sitofp (F := Ideal) .f32 (constantI S_ 32 0#32)) pads_S1x1000000_S1x1015808_000_0158080 h_S_ := by
  open_entry

/-- So below the millionth lane it holds the argument's entry. -/
theorem V_v5_apply (c : Dev nD) (n : Fin 1000000) (n' : Fin 1015808) (hn : n'.val = n.val) :
    V m c main_v5 (ix2 (0 : Fin 1) n') = m ((c : Thread nD τ).loc main_arg2) (ix1 n) := by
  rw [V_v5 m c]; exact padded_apply _ _ n n' hn

/-- The region finds in `v7` the argument `main_arg3` laid as one row and padded on the right. -/
theorem V_v7 (c : Dev nD) : (V m c main_v7 : S1x1015808.Idx → EReal)
    = pad S1x1015808 ![0, 0] ![0, 15808] ![0, 0] (shapeCast S1x1000000 (m ((c : Thread nD τ).loc main_arg3)) shapeCasts_S1000000_S1x1000000)
        (sitofp (F := Ideal) .f32 (constantI S_ 32 0#32)) pads_S1x1000000_S1x1015808_000_0158080 h_S_ := by
  open_entry

/-- So below the millionth lane it holds the argument's entry. -/
theorem V_v7_apply (c : Dev nD) (n : Fin 1000000) (n' : Fin 1015808) (hn : n'.val = n.val) :
    V m c main_v7 (ix2 (0 : Fin 1) n') = m ((c : Thread nD τ).loc main_arg3) (ix1 n) := by
  rw [V_v7 m c]; exact padded_apply _ _ n n' hn

/-! ## The parameters -/

/-- Column `o` of W1, cut out, flattened and stood up again, is that column. -/
theorem V_v10 (c : Dev nD) : (V m c main_v10 : S64x1.Idx → EReal)
    = shapeCast S64x1 (shapeCast S64 (extractStridedSlice S64x1 ![0, 0] (m ((c : Thread nD τ).loc main_arg4)) slices_S64x2_S64x1_0_0) shapeCasts_S64x1_S64) shapeCasts_S64_S64x1 := by
  open_entry
theorem V_v13 (c : Dev nD) : (V m c main_v13 : S64x1.Idx → EReal)
    = shapeCast S64x1 (shapeCast S64 (extractStridedSlice S64x1 ![0, 1] (m ((c : Thread nD τ).loc main_arg4)) slices_S64x2_S64x1_0_1) shapeCasts_S64x1_S64) shapeCasts_S64_S64x1 := by
  open_entry
theorem V_v14 (c : Dev nD) : (V m c main_v14 : S64x1.Idx → EReal) = shapeCast S64x1 (m ((c : Thread nD τ).loc main_arg5)) shapeCasts_S64_S64x1 := by
  open_entry
theorem V_v15 (c : Dev nD) : (V m c main_v15 : S64x1.Idx → EReal) = shapeCast S64x1 (m ((c : Thread nD τ).loc main_arg7)) shapeCasts_S64_S64x1 := by
  open_entry
theorem V_v17 (c : Dev nD) : (V m c main_v17 : S64x1.Idx → EReal)
    = shapeCast S64x1 (shapeCast S64 (m ((c : Thread nD τ).loc main_arg8)) shapeCasts_S1x64_S64) shapeCasts_S64_S64x1 := by
  open_entry
theorem V_v18 (c : Dev nD) : (V m c main_v18 : S1x1.Idx → EReal) = shapeCast S1x1 (m ((c : Thread nD τ).loc main_arg9)) shapeCasts_S1_S1x1 := by
  open_entry

theorem V_v10_apply (c : Dev nD) (k : Fin 64) : V m c main_v10 (ix2 k (0 : Fin 1)) = m ((c : Thread nD τ).loc main_arg4) (ix2 k (0 : Fin 2)) := by
  rw [V_v10 m c, shapeCast_shapeCast]
  exact extractStridedSlice_apply ![0, 0] _ slices_S64x2_S64x1_0_0 (ix2 k (0 : Fin 1)) (ix2 k (0 : Fin 2)) fun a => by
    match a with
    | ⟨0, _⟩ => show k.val = 0 + k.val; omega
    | ⟨1, _⟩ => rfl
theorem V_v13_apply (c : Dev nD) (k : Fin 64) : V m c main_v13 (ix2 k (0 : Fin 1)) = m ((c : Thread nD τ).loc main_arg4) (ix2 k (1 : Fin 2)) := by
  rw [V_v13 m c, shapeCast_shapeCast]
  exact extractStridedSlice_apply ![0, 1] _ slices_S64x2_S64x1_0_1 (ix2 k (0 : Fin 1)) (ix2 k (1 : Fin 2)) fun a => by
    match a with
    | ⟨0, _⟩ => show k.val = 0 + k.val; omega
    | ⟨1, _⟩ => rfl
theorem V_v14_apply (c : Dev nD) (k : Fin 64) : V m c main_v14 (ix2 k (0 : Fin 1)) = m ((c : Thread nD τ).loc main_arg5) (ix1 k) := by
  rw [V_v14 m c]; exact LibRowwise.shapeCast_a_a1_apply _ shapeCasts_S64_S64x1 k 0
theorem V_v15_apply (c : Dev nD) (k : Fin 64) : V m c main_v15 (ix2 k (0 : Fin 1)) = m ((c : Thread nD τ).loc main_arg7) (ix1 k) := by
  rw [V_v15 m c]; exact LibRowwise.shapeCast_a_a1_apply _ shapeCasts_S64_S64x1 k 0
theorem V_v17_apply (c : Dev nD) (j : Fin 64) : V m c main_v17 (ix2 j (0 : Fin 1)) = m ((c : Thread nD τ).loc main_arg8) (ix2 (0 : Fin 1) j) := by
  rw [V_v17 m c]
  exact (LibRowwise.shapeCast_a_a1_apply _ shapeCasts_S64_S64x1 j 0).trans (shapeCast_1a_a_apply _ shapeCasts_S1x64_S64 j)
theorem V_v18_apply (c : Dev nD) : V m c main_v18 (ix2 (0 : Fin 1) (0 : Fin 1)) = m ((c : Thread nD τ).loc main_arg9) (ix1 (0 : Fin 1)) := by
  rw [V_v18 m c]; exact LibRowwise.shapeCast_a_a1_apply _ shapeCasts_S1_S1x1 0 0

/-- The network's parameters as the region finds them are the parameters the arguments hold. -/
theorem weights_entry (c : Dev nD) :
    weightsOfColumns (V m c main_v10) (V m c main_v13) (V m c main_v14) (V m c main_arg6) (V m c main_v15) (V m c main_v17) (V m c main_v18)
      = weightsOf (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) :=
  weightsOfColumns_eq_weightsOf _ _ _ _ _ _ _ _ _ _ _ _ _ (V_v10_apply m c) (V_v13_apply m c) (V_v14_apply m c) (V_main_arg6 m c)
    (V_v15_apply m c) (V_v17_apply m c) (V_v18_apply m c)

end Cert.KernelIdeal.Entry

end
-- ==== Proof.Results.lean ====
/-
  The kernel's program, read to the end.  After the launch the host keeps the first million lanes of each of the
  four output rows and lays them back as vectors.  Below the millionth lane the padded rows hold the arguments, so
  the four results are the field of GrnSpec at the million points (the padding never reaches them: no operation of
  the body mixes lanes).
-/
import proofs.«173381_j58901181497818_2_alg».proof.Proof.Blocks
import proofs.«173381_j58901181497818_2_alg».proof.Proof.Entry
import Idealize.ShloMosaic.Lib.StableHlo.Run
import Idealize.ShloMosaic.Lib.ValueLayout
import Idealize.ShloMosaic.Lib.Pipeline.Value

set_option maxRecDepth 16384

noncomputable section

namespace Cert.KernelIdeal.Results

open Idealize.ShloMosaic Idealize.ShloMosaic.TcCoe Idealize.ShloMosaic.ValueIdx Idealize.SL.Sem Cert.KernelIdeal Cert.KernelIdeal.Gen Cert.GrnSpec
open Idealize.ShloMosaic.StableHlo Cert.KernelIdeal.Blocks Cert.KernelIdeal.Entry

variable (m : (ℓ : Loc nD τ sig) → Buf (Elt Ideal) ℓ)

/-- The first million lanes of a padded row, laid as a vector, read at n the row's lane n. -/
theorem first_million_apply (A : S1x1015808.Idx → EReal) (n : Fin 1000000) :
    shapeCast S1000000 (extractStridedSlice S1x1000000 ![0, 0] A slices_S1x1015808_S1x1000000_0_0) shapeCasts_S1x1000000_S1000000 (ix1 n)
      = A (ix2 (0 : Fin 1) (⟨n.val, lt_trans n.isLt (by decide)⟩ : Fin 1015808)) := by
  exact LibPaddedRow.firstLanes_apply A slices_S1x1015808_S1x1000000_0_0 shapeCasts_S1x1000000_S1000000 n _ rfl

/-! ## The host operations after the region -/

theorem tail_main_v21 (c : Dev nD) :
    (Pipeline.afterTail₀ cfgs (dats m) 0 (V0 m) [hostOps1] c main_v21 : S1000000.Idx → EReal)
      = shapeCast S1000000 (extractStridedSlice S1x1000000 ![0, 0] ((dats m 0 c).arrAt 11 cfg0.N) slices_S1x1015808_S1x1000000_0_0)
          shapeCasts_S1x1000000_S1000000 := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v19_0)
      = (dats m 0 c).arrAt 11 cfg0.N := Pipeline.withArrays_arr spec0 launch0.win.arr_inj c _ _ 11
  rw [e]
  rfl

theorem tail_main_v23 (c : Dev nD) :
    (Pipeline.afterTail₀ cfgs (dats m) 0 (V0 m) [hostOps1] c main_v23 : S1000000.Idx → EReal)
      = shapeCast S1000000 (extractStridedSlice S1x1000000 ![0, 0] ((dats m 0 c).arrAt 12 cfg0.N) slices_S1x1015808_S1x1000000_0_0)
          shapeCasts_S1x1000000_S1000000 := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v19_1)
      = (dats m 0 c).arrAt 12 cfg0.N := Pipeline.withArrays_arr spec0 launch0.win.arr_inj c _ _ 12
  rw [e]
  rfl

theorem tail_main_v25 (c : Dev nD) :
    (Pipeline.afterTail₀ cfgs (dats m) 0 (V0 m) [hostOps1] c main_v25 : S1000000.Idx → EReal)
      = shapeCast S1000000 (extractStridedSlice S1x1000000 ![0, 0] ((dats m 0 c).arrAt 13 cfg0.N) slices_S1x1015808_S1x1000000_0_0)
          shapeCasts_S1x1000000_S1000000 := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v19_2)
      = (dats m 0 c).arrAt 13 cfg0.N := Pipeline.withArrays_arr spec0 launch0.win.arr_inj c _ _ 13
  rw [e]
  rfl

theorem tail_main_v27 (c : Dev nD) :
    (Pipeline.afterTail₀ cfgs (dats m) 0 (V0 m) [hostOps1] c main_v27 : S1000000.Idx → EReal)
      = shapeCast S1000000 (extractStridedSlice S1x1000000 ![0, 0] ((dats m 0 c).arrAt 14 cfg0.N) slices_S1x1015808_S1x1000000_0_0)
          shapeCasts_S1x1000000_S1000000 := by
  unfold Pipeline.afterTail₀
  show StableHlo.after hostOps1 _ (Proc.devRef .tc main_v27) = _
  after_results
  have e : Pipeline.withArrays (cfgs 0).spec c (V0 m c) (fun w => (dats m 0 c).arrAt w (cfgs 0).N) (Proc.devRef .tc main_v19_3)
      = (dats m 0 c).arrAt 14 cfg0.N := Pipeline.withArrays_arr spec0 launch0.win.arr_inj c _ _ 14
  rw [e]
  rfl

/-! ## The four results -/

/-- Result 0 of the kernel's program. -/
theorem kernel_result0 (c : Dev nD) :
    (Pipeline.afterTail₀ cfgs (dats m) 0 (V0 m) [hostOps1] c main_v21 : S1000000.Idx → EReal) = resultX (m ((c : Thread nD τ).loc main_arg0)) (m ((c : Thread nD τ).loc main_arg1)) (m ((c : Thread nD τ).loc main_arg2)) (m ((c : Thread nD τ).loc main_arg3)) (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  funext i
  obtain ⟨n, rfl⟩ : ∃ n : Fin 1000000, i = ix1 n := ⟨i 0, eq_ix1 i⟩
  rw [tail_main_v21 m c, first_million_apply, final11 m c]
  show dX (weightsOfColumns (V m c main_v10) (V m c main_v13) (V m c main_v14) (V m c main_arg6) (V m c main_v15) (V m c main_v17) (V m c main_v18)) (V m c main_v1 (ix2 (0 : Fin 1) (⟨n.val, lt_trans n.isLt (by decide)⟩ : Fin 1015808))) (V m c main_v3 (ix2 (0 : Fin 1) (⟨n.val, lt_trans n.isLt (by decide)⟩ : Fin 1015808))) (V m c main_v5 (ix2 (0 : Fin 1) (⟨n.val, lt_trans n.isLt (by decide)⟩ : Fin 1015808))) (V m c main_v7 (ix2 (0 : Fin 1) (⟨n.val, lt_trans n.isLt (by decide)⟩ : Fin 1015808))) = dX (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ((m ((c : Thread nD τ).loc main_arg0)) (ix1 n)) ((m ((c : Thread nD τ).loc main_arg1)) (ix1 n)) ((m ((c : Thread nD τ).loc main_arg2)) (ix1 n)) ((m ((c : Thread nD τ).loc main_arg3)) (ix1 n))
  rw [weights_entry m c, V_v1_apply m c n _ rfl, V_v3_apply m c n _ rfl, V_v5_apply m c n _ rfl, V_v7_apply m c n _ rfl]

/-- Result 1 of the kernel's program. -/
theorem kernel_result1 (c : Dev nD) :
    (Pipeline.afterTail₀ cfgs (dats m) 0 (V0 m) [hostOps1] c main_v23 : S1000000.Idx → EReal) = resultY (m ((c : Thread nD τ).loc main_arg0)) (m ((c : Thread nD τ).loc main_arg1)) := by
  funext i
  obtain ⟨n, rfl⟩ : ∃ n : Fin 1000000, i = ix1 n := ⟨i 0, eq_ix1 i⟩
  rw [tail_main_v23 m c, first_million_apply, final12 m c]
  show fieldY (V m c main_v1 (ix2 (0 : Fin 1) (⟨n.val, lt_trans n.isLt (by decide)⟩ : Fin 1015808))) (V m c main_v3 (ix2 (0 : Fin 1) (⟨n.val, lt_trans n.isLt (by decide)⟩ : Fin 1015808))) = fieldY ((m ((c : Thread nD τ).loc main_arg0)) (ix1 n)) ((m ((c : Thread nD τ).loc main_arg1)) (ix1 n))
  rw [V_v1_apply m c n _ rfl, V_v3_apply m c n _ rfl]

/-- Result 2 of the kernel's program. -/
theorem kernel_result2 (c : Dev nD) :
    (Pipeline.afterTail₀ cfgs (dats m) 0 (V0 m) [hostOps1] c main_v25 : S1000000.Idx → EReal) = fun i => -(resultX (m ((c : Thread nD τ).loc main_arg0)) (m ((c : Thread nD τ).loc main_arg1)) (m ((c : Thread nD τ).loc main_arg2)) (m ((c : Thread nD τ).loc main_arg3)) (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) i := by
  funext i
  obtain ⟨n, rfl⟩ : ∃ n : Fin 1000000, i = ix1 n := ⟨i 0, eq_ix1 i⟩
  rw [tail_main_v25 m c, first_million_apply, final13 m c]
  show -(dX (weightsOfColumns (V m c main_v10) (V m c main_v13) (V m c main_v14) (V m c main_arg6) (V m c main_v15) (V m c main_v17) (V m c main_v18)) (V m c main_v1 (ix2 (0 : Fin 1) (⟨n.val, lt_trans n.isLt (by decide)⟩ : Fin 1015808))) (V m c main_v3 (ix2 (0 : Fin 1) (⟨n.val, lt_trans n.isLt (by decide)⟩ : Fin 1015808))) (V m c main_v5 (ix2 (0 : Fin 1) (⟨n.val, lt_trans n.isLt (by decide)⟩ : Fin 1015808))) (V m c main_v7 (ix2 (0 : Fin 1) (⟨n.val, lt_trans n.isLt (by decide)⟩ : Fin 1015808)))) = -(dX (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ((m ((c : Thread nD τ).loc main_arg0)) (ix1 n)) ((m ((c : Thread nD τ).loc main_arg1)) (ix1 n)) ((m ((c : Thread nD τ).loc main_arg2)) (ix1 n)) ((m ((c : Thread nD τ).loc main_arg3)) (ix1 n)))
  rw [weights_entry m c, V_v1_apply m c n _ rfl, V_v3_apply m c n _ rfl, V_v5_apply m c n _ rfl, V_v7_apply m c n _ rfl]

/-- Result 3 of the kernel's program. -/
theorem kernel_result3 (c : Dev nD) :
    (Pipeline.afterTail₀ cfgs (dats m) 0 (V0 m) [hostOps1] c main_v27 : S1000000.Idx → EReal) = fun i => -(resultY (m ((c : Thread nD τ).loc main_arg0)) (m ((c : Thread nD τ).loc main_arg1))) i := by
  funext i
  obtain ⟨n, rfl⟩ : ∃ n : Fin 1000000, i = ix1 n := ⟨i 0, eq_ix1 i⟩
  rw [tail_main_v27 m c, first_million_apply, final14 m c]
  show -(fieldY (V m c main_v1 (ix2 (0 : Fin 1) (⟨n.val, lt_trans n.isLt (by decide)⟩ : Fin 1015808))) (V m c main_v3 (ix2 (0 : Fin 1) (⟨n.val, lt_trans n.isLt (by decide)⟩ : Fin 1015808)))) = -(fieldY ((m ((c : Thread nD τ).loc main_arg0)) (ix1 n)) ((m ((c : Thread nD τ).loc main_arg1)) (ix1 n)))
  rw [V_v1_apply m c n _ rfl, V_v3_apply m c n _ rfl]

/-! ## The run -/

/-- Every execution of the kernel's program ends with the four results at the field of GrnSpec and its negative,
    the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v21) = (resultX (m ((c : Thread nD τ).loc main_arg0)) (m ((c : Thread nD τ).loc main_arg1)) (m ((c : Thread nD τ).loc main_arg2)) (m ((c : Thread nD τ).loc main_arg3)) (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
      ∧ r.2.mem ((c : Thread nD τ).loc main_v23) = (resultY (m ((c : Thread nD τ).loc main_arg0)) (m ((c : Thread nD τ).loc main_arg1)))
      ∧ r.2.mem ((c : Thread nD τ).loc main_v25) = (fun i => -(resultX (m ((c : Thread nD τ).loc main_arg0)) (m ((c : Thread nD τ).loc main_arg1)) (m ((c : Thread nD τ).loc main_arg2)) (m ((c : Thread nD τ).loc main_arg3)) (weightsOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) i)
      ∧ r.2.mem ((c : Thread nD τ).loc main_v27) = (fun i => -(resultY (m ((c : Thread nD τ).loc main_arg0)) (m ((c : Thread nD τ).loc main_arg1))) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨
      ((h c).2 main_v21 (Pipeline.mem_restRefs_of main_v21 (by decide) (by decide))).trans (kernel_result0 m c),
      ((h c).2 main_v23 (Pipeline.mem_restRefs_of main_v23 (by decide) (by decide))).trans (kernel_result1 m c),
      ((h c).2 main_v25 (Pipeline.mem_restRefs_of main_v25 (by decide) (by decide))).trans (kernel_result2 m c),
      ((h c).2 main_v27 (Pipeline.mem_restRefs_of main_v27 (by decide) (by decide))).trans (kernel_result3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Results

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«173381_j58901181497818_2_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibDenseRelu.lean ====
/-
  A dense unit with a rectifier, and a linear read-out, read at an index at the exact instance, for any extents.

  * `vectorDense_apply`: the vector unit's `max (h · W into a zero accumulator + a one-row bias repeated down the rows) 0`
    at `(p, q)` is `max (∑ k, h(p, k) · W(k, q) + b(0, q)) 0`.
  * `hostDense_apply`: the host's `max (dot_general h W + a bias vector laid as a row and repeated down the rows) 0`
    at `(p, q)` is `max (∑ k, h(p, k) · W(k, q) + b q) 0`.
  * `vectorReadout_apply`: the vector unit's row sum of `H ⊙ (a one-row weight repeated down the rows)`, kept as a column,
    plus a 1×1 offset repeated down the rows, at `(p, u)` is `∑ k, H(p, k) · w(0, k) + c(0, 0)`.
  * `hostReadout_apply`: the host's `dot_general H W` against a one-column `W` plus a one-entry offset, at `(p, u)`, is
    `∑ k, H(p, k) · W(k, u) + c 0`.
-/
import Idealize.ShloMosaic.Lib.ValueIdx
import Idealize.ShloMosaic.Lib.ValueLayout
import Idealize.ShloMosaic.Lib.Pipeline.Value
import Idealize.ShloMosaic.PureOps.Ideal.Laws
import proofs.«173381_j58901181497818_2_alg».proof.Proof.LibMatmul2d
import proofs.«173381_j58901181497818_2_alg».proof.Proof.LibHostStack
import proofs.«173381_j58901181497818_2_alg».proof.Proof.LibColumns
import proofs.«173381_j58901181497818_2_alg».proof.Proof.LibRowwise

noncomputable section

namespace Cert.LibDenseRelu

open Idealize.ShloMosaic Idealize.ShloMosaic.ValueIdx
open scoped BigOperators

variable {n K N : ℕ}

/-- A dense unit with a rectifier on the vector unit, at `(p, q)`. -/
theorem vectorDense_apply {φ₁ φ₂ : FTy} (h : FVec Ideal ⟨2, ![n, K]⟩ φ₁) (W : FVec Ideal ⟨2, ![K, N]⟩ φ₂)
    (b : FVec Ideal ⟨2, ![1, N]⟩ .f32) (hb : (⟨2, ![1, N]⟩ : Shape).Broadcasts ⟨2, ![n, N]⟩) (p : Fin n) (q : Fin N) :
    maximumf (addf (matmul (DotDims.plain n K N) none h W (constant ⟨2, ![n, N]⟩ .f32 0x00000000#32)) (broadcastTo ⟨2, ![n, N]⟩ b hb))
        (broadcast ⟨2, ![n, N]⟩ (Scalar.ofBits .f32 0x00000000#32)) (ix2 p q)
      = max (∑ k : Fin K, h (ix2 p k) * W (ix2 k q) + b (ix2 (0 : Fin 1) q)) 0 := by
  have h1 := Cert.LibMatmul2d.matmul_plain_apply h W p q
  have h2 := broadcastTo_1b_ab_apply b hb p q
  show max (FloatOps.matmul (DotDims.plain n K N) none h W (constant ⟨2, ![n, N]⟩ .f32 0x00000000#32) (ix2 p q)
      + broadcastTo ⟨2, ![n, N]⟩ b hb (ix2 p q)) (Ideal.ofBits .f32 0x00000000#32) = _
  rw [h1, h2, Ideal.ofBits_zero_f32]

/-- A dense unit with a rectifier on the host, at `(p, q)`. -/
theorem hostDense_apply {φ₁ φ₂ : FTy} (h : FVec Ideal ⟨2, ![n, K]⟩ φ₁) (W : FVec Ideal ⟨2, ![K, N]⟩ φ₂)
    (b : FVec Ideal ⟨1, ![N]⟩ .f32)
    (h₁ : (⟨1, ![N]⟩ : Shape).BroadcastsInDim ⟨2, ![1, N]⟩ (![1] : Fin 1 → Fin (⟨2, ![1, N]⟩ : Shape).rank))
    (h₂ : (⟨2, ![1, N]⟩ : Shape).BroadcastsInDim ⟨2, ![n, N]⟩ (![0, 1] : Fin 2 → Fin (⟨2, ![n, N]⟩ : Shape).rank))
    (h₀ : (⟨0, ![]⟩ : Shape).BroadcastsInDim ⟨2, ![n, N]⟩ (![] : Fin 0 → Fin (⟨2, ![n, N]⟩ : Shape).rank))
    (p : Fin n) (q : Fin N) :
    maximumf (addf (Host.dotGeneral (DotDims.plain n K N) none h W)
          (broadcastInDim ⟨2, ![n, N]⟩ ![0, 1] h₂ (broadcastInDim ⟨2, ![1, N]⟩ ![1] h₁ b)))
        (broadcastInDim ⟨2, ![n, N]⟩ ![] h₀ (constant (F := Ideal) ⟨0, ![]⟩ .f32 0x00000000#32)) (ix2 p q)
      = max (∑ k : Fin K, h (ix2 p k) * W (ix2 k q) + b (ix1 q)) 0 := by
  have h1 := Cert.LibHostStack.dotGeneral_plain_apply h W p q
  have h2 := Cert.LibColumns.perColumnHost_apply (a := n) b h₁ h₂ p q
  have h3 : broadcastInDim ⟨2, ![n, N]⟩ ![] h₀ (constant (F := Ideal) ⟨0, ![]⟩ .f32 0x00000000#32) (ix2 p q) = 0 :=
    (broadcastInDim_apply _ h₀ _ (ix2 p q) (fun a => a.elim0) (fun a => a.elim0)).trans Ideal.ofBits_zero_f32
  show max (Host.dotGeneral (DotDims.plain n K N) none h W (ix2 p q)
      + broadcastInDim ⟨2, ![n, N]⟩ ![0, 1] h₂ (broadcastInDim ⟨2, ![1, N]⟩ ![1] h₁ b) (ix2 p q))
      (broadcastInDim ⟨2, ![n, N]⟩ ![] h₀ (constant (F := Ideal) ⟨0, ![]⟩ .f32 0x00000000#32) (ix2 p q)) = _
  rw [h1, h2, h3]

/-- The read-out on the vector unit, at `(p, u)`. -/
theorem vectorReadout_apply (H : FVec Ideal ⟨2, ![n, K]⟩ .f32) (w : FVec Ideal ⟨2, ![1, K]⟩ .f32) (c : FVec Ideal ⟨2, ![1, 1]⟩ .f32)
    (hw : (⟨2, ![1, K]⟩ : Shape).Broadcasts ⟨2, ![n, K]⟩) (hc : (⟨2, ![1, 1]⟩ : Shape).Broadcasts ⟨2, ![n, 1]⟩)
    (hr : (⟨2, ![n, K]⟩ : Shape).Reduces [1] ⟨1, ![n]⟩) (hφ : FKind.Formats FTy.f32)
    (hacc : (0x00000000#32 : BitVec FTy.f32.bits) = FKind.add.neutral .f32 hφ)
    (hs : (⟨1, ![n]⟩ : Shape).ShapeCasts ⟨2, ![n, 1]⟩) (p : Fin n) (u : Fin 1) :
    addf (shapeCast ⟨2, ![n, 1]⟩ (multiReduction .add [1] ⟨1, ![n]⟩ (mulf H (broadcastTo ⟨2, ![n, K]⟩ w hw)) 0x00000000#32 hr hφ hacc) hs)
        (broadcastTo ⟨2, ![n, 1]⟩ c hc) (ix2 p u)
      = ∑ k : Fin K, H (ix2 p k) * w (ix2 (0 : Fin 1) k) + c (ix2 (0 : Fin 1) (0 : Fin 1)) := by
  have h1 := Cert.LibRowwise.shapeCast_a_a1_apply
    (multiReduction .add [1] ⟨1, ![n]⟩ (mulf H (broadcastTo ⟨2, ![n, K]⟩ w hw)) 0x00000000#32 hr hφ hacc) hs p u
  have h2 := Cert.LibRowwise.rowSum_apply (mulf H (broadcastTo ⟨2, ![n, K]⟩ w hw)) 0x00000000#32 hr hφ hacc p
  have h3 := broadcastTo_1b_ab_apply c hc p u
  have hu : u = 0 := Subsingleton.elim _ _
  show shapeCast ⟨2, ![n, 1]⟩ (multiReduction .add [1] ⟨1, ![n]⟩ (mulf H (broadcastTo ⟨2, ![n, K]⟩ w hw)) 0x00000000#32 hr hφ hacc) hs (ix2 p u)
      + broadcastTo ⟨2, ![n, 1]⟩ c hc (ix2 p u) = _
  rw [h1, h2, h3, hu]
  refine congrArg (· + c (ix2 (0 : Fin 1) (0 : Fin 1))) (Finset.sum_congr rfl fun k _ => ?_)
  show H (ix2 p k) * broadcastTo ⟨2, ![n, K]⟩ w hw (ix2 p k) = _
  rw [broadcastTo_1b_ab_apply w hw p k]

/-- The read-out on the host, at `(p, u)`. -/
theorem hostReadout_apply (H : FVec Ideal ⟨2, ![n, K]⟩ .f32) (W : FVec Ideal ⟨2, ![K, 1]⟩ .f32) (c : FVec Ideal ⟨1, ![1]⟩ .f32)
    (h₁ : (⟨1, ![1]⟩ : Shape).BroadcastsInDim ⟨2, ![1, 1]⟩ (![1] : Fin 1 → Fin (⟨2, ![1, 1]⟩ : Shape).rank))
    (h₂ : (⟨2, ![1, 1]⟩ : Shape).BroadcastsInDim ⟨2, ![n, 1]⟩ (![0, 1] : Fin 2 → Fin (⟨2, ![n, 1]⟩ : Shape).rank))
    (p : Fin n) (u : Fin 1) :
    addf (Host.dotGeneral (DotDims.plain n K 1) none H W)
        (broadcastInDim ⟨2, ![n, 1]⟩ ![0, 1] h₂ (broadcastInDim ⟨2, ![1, 1]⟩ ![1] h₁ c)) (ix2 p u)
      = ∑ k : Fin K, H (ix2 p k) * W (ix2 k u) + c (ix1 (0 : Fin 1)) := by
  have h1 := Cert.LibHostStack.dotGeneral_plain_apply H W p u
  have h2 := Cert.LibColumns.perColumnHost_apply (a := n) c h₁ h₂ p u
  have hu : u = 0 := Subsingleton.elim _ _
  show Host.dotGeneral (DotDims.plain n K 1) none H W (ix2 p u)
      + broadcastInDim ⟨2, ![n, 1]⟩ ![0, 1] h₂ (broadcastInDim ⟨2, ![1, 1]⟩ ![1] h₁ c) (ix2 p u) = _
  rw [h1, h2, hu]

end Cert.LibDenseRelu

end
-- ==== Proof.RefLayers.lean ====
/-
  The reference, layer by layer, at a point.  The reference stacks the two perturbed coordinates as the columns of a
  [1000000, 2] matrix and applies the network as three matrix products against the transposed weight matrices, a
  bias row added after each and a rectifier after the first two; the same at the one-row target input; then the
  field, pointwise over the million points.  Read at point n every stage is the corresponding stage of GrnSpec: the
  products as sums over the contracted axis (two, sixty-four and sixty-four terms, in the same order as the
  kernel's), with the factors of each term in the other order — multiplication of extended reals commutes.
-/
import proofs.«173381_j58901181497818_2_alg».proof.Proof.Gen.ReferenceIdeal.Read
import proofs.«173381_j58901181497818_2_alg».proof.Proof.GrnSpec
import proofs.«173381_j58901181497818_2_alg».proof.Proof.LibDenseRelu
import Idealize.ShloMosaic.Lib.ValueLayout
import Idealize.ShloMosaic.Lib.Pipeline.Value

noncomputable section

namespace Cert.ReferenceIdeal.Layers

open Idealize.ShloMosaic Idealize.ShloMosaic.ValueIdx Cert.ReferenceIdeal Cert.ReferenceIdeal.Gen Cert.ReferenceIdeal.Read Cert.GrnSpec
open scoped BigOperators

variable (x0 x1 x2 x3 : FVec Ideal S1000000 .f32) (x4 : FVec Ideal S64x2 .f32) (x5 : FVec Ideal S64 .f32) (x6 : FVec Ideal S64x64 .f32)
  (x7 : FVec Ideal S64 .f32) (x8 : FVec Ideal S1x64 .f32) (x9 : FVec Ideal S1 .f32)

/-- The zero word is zero. -/
theorem c0_eq : c0 = 0 := Ideal.ofBits_zero_f32

/-! ## The stacked input -/

/-- Column 0 of the stacked input is x + e_x. -/
theorem stacked_apply0 (n : Fin 1000000) : val_main_v4 (F := Ideal) x0 x1 x2 x3 (ix2 n (0 : Fin 2)) = x0 (ix1 n) + x2 (ix1 n) := by
  unfold val_main_v4
  refine (concatenate_pair_apply_left (t := S1000000x2) (s₁ := S1000000x1) (s₂ := S1000000x1) (1 : Fin 2) _ _ concatenates_S1000000x1_S1000000x1_S1000000x2_d1 (ix2 n (0 : Fin 2)) rfl
    (ix2 n (0 : Fin 1)) fun b => ?_).trans ?_
  · match b with
    | ⟨0, _⟩ => rfl
    | ⟨1, _⟩ => rfl
  · exact LibColumns.broadcastInDim_a_a1_apply (val_main_v0 (F := Ideal) x0 x2) bcast_S1000000_S1000000x1_0 n 0

/-- Column 1 is y + e_y. -/
theorem stacked_apply1 (n : Fin 1000000) : val_main_v4 (F := Ideal) x0 x1 x2 x3 (ix2 n (1 : Fin 2)) = x1 (ix1 n) + x3 (ix1 n) := by
  unfold val_main_v4
  refine (concatenate_pair_apply_right (t := S1000000x2) (s₁ := S1000000x1) (s₂ := S1000000x1) (1 : Fin 2) _ _ concatenates_S1000000x1_S1000000x1_S1000000x2_d1 (ix2 n (1 : Fin 2)) rfl rfl
    (ix2 n (0 : Fin 1)) (fun b hb => ?_) rfl).trans ?_
  · match b with
    | ⟨0, _⟩ => rfl
    | ⟨1, _⟩ => exact absurd rfl hb
  · exact LibColumns.broadcastInDim_a_a1_apply (val_main_v1 (F := Ideal) x1 x3) bcast_S1000000_S1000000x1_0 n 0

/-! ## The network at a point -/

theorem ref_layer1 (n : Fin 1000000) (k : Fin 64) :
    val_main_v11 (F := Ideal) x0 x1 x2 x3 x4 x5 (ix2 n k) = layer1 (weightsOf x4 x5 x6 x7 x8 x9) (x0 (ix1 n) + x2 (ix1 n)) (x1 (ix1 n) + x3 (ix1 n)) k := by
  refine (LibDenseRelu.hostDense_apply (n := 1000000) (K := 2) (N := 64) (val_main_v4 (F := Ideal) x0 x1 x2 x3) (val_main_v6 (F := Ideal) x4) x5
    bcast_S64_S1x64_1 bcast_S1x64_S1000000x64_0_1 bcast_S_S1000000x64 n k).trans ?_
  rw [Fin.sum_univ_two, stacked_apply0, stacked_apply1]
  unfold val_main_v6
  rw [transpose_ix2_apply, transpose_ix2_apply]
  unfold layer1 weightsOf
  dsimp only
  rw [c0_eq, mul_comm (x0 (ix1 n) + x2 (ix1 n)), mul_comm (x1 (ix1 n) + x3 (ix1 n))]

theorem ref_layer2 (n : Fin 1000000) (j : Fin 64) :
    val_main_v17 (F := Ideal) x0 x1 x2 x3 x4 x5 x6 x7 (ix2 n j) = layer2 (weightsOf x4 x5 x6 x7 x8 x9) (x0 (ix1 n) + x2 (ix1 n)) (x1 (ix1 n) + x3 (ix1 n)) j := by
  refine (LibDenseRelu.hostDense_apply (n := 1000000) (K := 64) (N := 64) (val_main_v11 (F := Ideal) x0 x1 x2 x3 x4 x5) (val_main_v12 (F := Ideal) x6) x7
    bcast_S64_S1x64_1 bcast_S1x64_S1000000x64_0_1 bcast_S_S1000000x64 n j).trans ?_
  unfold layer2
  rw [c0_eq]
  refine congrArg (fun z : EReal => max (z + x7 (ix1 j)) 0) (Finset.sum_congr rfl fun k _ => ?_)
  rw [ref_layer1 x0 x1 x2 x3 x4 x5 x6 x7 x8 x9 n k]
  unfold val_main_v12
  rw [transpose_ix2_apply]
  exact mul_comm _ _

theorem ref_net (n : Fin 1000000) :
    val_main_v22 (F := Ideal) x0 x1 x2 x3 x4 x5 x6 x7 x8 x9 (ix2 n (0 : Fin 1)) = net (weightsOf x4 x5 x6 x7 x8 x9) (x0 (ix1 n) + x2 (ix1 n)) (x1 (ix1 n) + x3 (ix1 n)) := by
  refine (LibDenseRelu.hostReadout_apply (n := 1000000) (K := 64) (val_main_v17 (F := Ideal) x0 x1 x2 x3 x4 x5 x6 x7) (val_main_v18 (F := Ideal) x8) x9
    bcast_S1_S1x1_1 bcast_S1x1_S1000000x1_0_1 n 0).trans ?_
  unfold net
  refine congrArg (fun z : EReal => z + x9 (ix1 (0 : Fin 1))) (Finset.sum_congr rfl fun j _ => ?_)
  rw [ref_layer2 x0 x1 x2 x3 x4 x5 x6 x7 x8 x9 n j]
  unfold val_main_v18
  rw [transpose_ix2_apply]
  rfl

/-! ## The network at the target -/

theorem ref_layer1_target (k : Fin 64) :
    val_main_v27 (F := Ideal) x4 x5 (ix2 (0 : Fin 1) k) = layer1 (weightsOf x4 x5 x6 x7 x8 x9) cT cT k := by
  show max (Host.dotGeneral (DotDims.plain 1 2 64) none (val_main_v5 (F := Ideal)) (val_main_v23 (F := Ideal) x4) (ix2 (0 : Fin 1) k)
      + broadcastInDim S1x64 ![1] bcast_S64_S1x64_1 x5 (ix2 (0 : Fin 1) k)) (val_main_call2_v0 (F := Ideal) (ix2 (0 : Fin 1) k)) = _
  rw [LibHostStack.dotGeneral_plain_apply, LibColumns.broadcastInDim_b_1b_apply, Fin.sum_univ_two, val_main_call2_v0_apply,
    val_main_v5_apply, val_main_v5_apply]
  unfold val_main_v23
  rw [transpose_ix2_apply, transpose_ix2_apply]
  show max (cT * x4 (ix2 k (0 : Fin 2)) + cT * x4 (ix2 k (1 : Fin 2)) + x5 (ix1 k)) c0
    = max (x4 (ix2 k (0 : Fin 2)) * cT + x4 (ix2 k (1 : Fin 2)) * cT + x5 (ix1 k)) c0
  rw [mul_comm cT, mul_comm cT]

theorem ref_layer2_target (j : Fin 64) :
    val_main_v32 (F := Ideal) x4 x5 x6 x7 (ix2 (0 : Fin 1) j) = layer2 (weightsOf x4 x5 x6 x7 x8 x9) cT cT j := by
  show max (Host.dotGeneral (DotDims.plain 1 64 64) none (val_main_v27 (F := Ideal) x4 x5) (val_main_v28 (F := Ideal) x6) (ix2 (0 : Fin 1) j)
      + broadcastInDim S1x64 ![1] bcast_S64_S1x64_1 x7 (ix2 (0 : Fin 1) j)) (val_main_call3_v0 (F := Ideal) (ix2 (0 : Fin 1) j)) = _
  rw [LibHostStack.dotGeneral_plain_apply, LibColumns.broadcastInDim_b_1b_apply, val_main_call3_v0_apply]
  unfold layer2
  refine congrArg (fun z : EReal => max (z + x7 (ix1 j)) c0) (Finset.sum_congr rfl fun k _ => ?_)
  rw [ref_layer1_target x4 x5 x6 x7 x8 x9 k]
  unfold val_main_v28
  rw [transpose_ix2_apply]
  exact mul_comm _ _

theorem ref_net_target :
    val_main_v36 (F := Ideal) x4 x5 x6 x7 x8 x9 (ix2 (0 : Fin 1) (0 : Fin 1)) = net (weightsOf x4 x5 x6 x7 x8 x9) cT cT := by
  show Host.dotGeneral (DotDims.plain 1 64 1) none (val_main_v32 (F := Ideal) x4 x5 x6 x7) (val_main_v33 (F := Ideal) x8) (ix2 (0 : Fin 1) (0 : Fin 1))
      + broadcastInDim S1x1 ![1] bcast_S1_S1x1_1 x9 (ix2 (0 : Fin 1) (0 : Fin 1)) = _
  rw [LibHostStack.dotGeneral_plain_apply, LibColumns.broadcastInDim_b_1b_apply]
  unfold net
  refine congrArg (fun z : EReal => z + x9 (ix1 (0 : Fin 1))) (Finset.sum_congr rfl fun j _ => ?_)
  rw [ref_layer2_target x4 x5 x6 x7 x8 x9 j]
  unfold val_main_v33
  rw [transpose_ix2_apply]
  rfl

/-! ## The control and the field -/

theorem ref_control (n : Fin 1000000) :
    val_main_v39 (F := Ideal) x0 x1 x2 x3 x4 x5 x6 x7 x8 x9 (ix1 n) = controlOf (weightsOf x4 x5 x6 x7 x8 x9) (x0 (ix1 n) + x2 (ix1 n)) (x1 (ix1 n) + x3 (ix1 n)) := by
  refine (LibColumns.shapeCast_a1_a_apply (val_main_v38 (F := Ideal) x0 x1 x2 x3 x4 x5 x6 x7 x8 x9) shapeCasts_S1000000x1_S1000000 n).trans ?_
  show val_main_v22 (F := Ideal) x0 x1 x2 x3 x4 x5 x6 x7 x8 x9 (ix2 n (0 : Fin 1)) - val_main_v37 (F := Ideal) x4 x5 x6 x7 x8 x9 (ix2 n (0 : Fin 1)) = _
  rw [ref_net, show val_main_v37 (F := Ideal) x4 x5 x6 x7 x8 x9 (ix2 n (0 : Fin 1)) = val_main_v36 (F := Ideal) x4 x5 x6 x7 x8 x9 (ix2 (0 : Fin 1) (0 : Fin 1))
    from LibColumns.broadcastInDim_1b_ab_apply _ bcast_S1x1_S1000000x1_0_1 n 0, ref_net_target]
  rfl

/-- The x-component, pointwise, from the control. -/
theorem ref_fieldX (i : S1000000.Idx) :
    val_main_v75 (F := Ideal) x0 x1 x2 x3 x4 x5 x6 x7 x8 x9 i = fieldX (val_main_v39 (F := Ideal) x0 x1 x2 x3 x4 x5 x6 x7 x8 x9 i) (x0 i) (x1 i) := by
  simp only [val_main_v75_apply, val_main_v74_apply, val_main_cst_11_apply, val_main_v73_apply, val_main_v72_apply, val_main_v71_apply,
    val_main_v70_apply, val_main_v69_apply, val_main_cst_10_apply, val_main_v68_apply, val_main_v67_apply, val_main_v66_apply,
    val_main_cst_9_apply, val_main_v65_apply, val_main_v64_apply, val_main_cst_8_apply, val_main_v63_apply, val_main_v62_apply,
    val_main_cst_7_apply, val_main_v61_apply, val_main_v60_apply, val_main_cst_6_apply, val_main_v59_apply, val_main_v48_apply,
    val_main_v47_apply, val_main_v46_apply, val_main_cst_2_apply, val_main_v45_apply, val_main_v44_apply, val_main_v43_apply,
    val_main_v42_apply, val_main_cst_1_apply, val_main_v41_apply, val_main_v40_apply, val_main_cst_0_apply]
  rfl

/-- The y-component, pointwise. -/
theorem ref_fieldY (i : S1000000.Idx) : val_main_v85 (F := Ideal) x0 x1 i = fieldY (x0 i) (x1 i) := by
  simp only [val_main_v85_apply, val_main_v84_apply, val_main_cst_15_apply, val_main_v83_apply, val_main_v82_apply, val_main_v81_apply,
    val_main_cst_14_apply, val_main_v80_apply, val_main_v79_apply, val_main_v78_apply, val_main_cst_13_apply, val_main_v77_apply,
    val_main_v76_apply, val_main_cst_12_apply, val_main_v58_apply, val_main_v57_apply, val_main_cst_5_apply, val_main_v56_apply,
    val_main_v55_apply, val_main_cst_4_apply, val_main_v54_apply, val_main_v53_apply, val_main_v52_apply, val_main_v51_apply,
    val_main_cst_3_apply, val_main_v50_apply, val_main_v49_apply, val_main_v43_apply, val_main_v42_apply, val_main_cst_1_apply,
    val_main_v41_apply, val_main_v40_apply, val_main_cst_0_apply]
  rfl

/-! ## The four results -/

theorem result0 : val_main_v75 (F := Ideal) x0 x1 x2 x3 x4 x5 x6 x7 x8 x9 = resultX x0 x1 x2 x3 (weightsOf x4 x5 x6 x7 x8 x9) := by
  funext i
  obtain ⟨n, rfl⟩ : ∃ n : Fin 1000000, i = ix1 n := ⟨i 0, eq_ix1 i⟩
  rw [ref_fieldX, ref_control]
  rfl

theorem result1 : val_main_v85 (F := Ideal) x0 x1 = resultY x0 x1 := funext fun i => ref_fieldY x0 x1 i

theorem result2 : val_main_v86 (F := Ideal) x0 x1 x2 x3 x4 x5 x6 x7 x8 x9 = fun i => -resultX x0 x1 x2 x3 (weightsOf x4 x5 x6 x7 x8 x9) i := by
  funext i
  show -(val_main_v75 (F := Ideal) x0 x1 x2 x3 x4 x5 x6 x7 x8 x9 i) = _
  rw [result0]

theorem result3 : val_main_v87 (F := Ideal) x0 x1 = fun i => -resultY x0 x1 i := by
  funext i
  show -(val_main_v85 (F := Ideal) x0 x1 i) = _
  rw [result1]

end Cert.ReferenceIdeal.Layers

end
-- ==== Proof.lean ====
/-
  The certificate's claims, assembled.

  Both programs compute, at each of a million points (x, y) with perturbations (e_x, e_y), the vector field of
  Proof/GrnSpec.lean: a Hill-function dynamics whose x-component is steered by u = net(x + e_x, y + e_y) − net(T, T),
  net a 2 → 64 → 64 → 1 network with rectifiers.  The kernel lays the points along the lanes in 31 blocks of
  32768, keeps the hidden units on the sublanes and multiplies W2 from the left; the reference keeps the points on
  the rows and multiplies the transposed weights from the right.  On the extended reals the two are one function:
  each product is the same sum over the contracted axis in the same order, each term with its two factors swapped,
  and multiplication commutes; everything else (the biases, the rectifiers, the quotients, the constants — the same
  binary32 words on both sides) is applied in the same order by both.  No finiteness is used: the precondition is
  never opened.  The negated results are 0 − z in the kernel and −z in the reference, equal on the extended reals.

  The frames of the two kernel programs are the generated frame certificates; the reference's frame is its generated
  run with the results dropped; the ideal pass rewrote nothing, so its ledger is empty.
-/
import proofs.«173381_j58901181497818_2_alg».proof.Defs
import proofs.«173381_j58901181497818_2_alg».proof.Proof.Gen.Kernel
import proofs.«173381_j58901181497818_2_alg».proof.Proof.Gen.Kernel.Frame
import proofs.«173381_j58901181497818_2_alg».proof.Proof.Gen.KernelIdeal
import proofs.«173381_j58901181497818_2_alg».proof.Proof.Gen.KernelIdeal.Frame
import proofs.«173381_j58901181497818_2_alg».proof.Proof.Gen.ReferenceIdeal
import proofs.«173381_j58901181497818_2_alg».proof.Proof.Gen.Pre_finite_inputs
import proofs.«173381_j58901181497818_2_alg».proof.Proof.Gen.ReferenceIdeal.Run
import proofs.«173381_j58901181497818_2_alg».proof.Proof.Gen.ReferenceIdeal.Read
import proofs.«173381_j58901181497818_2_alg».proof.Proof.Results
import proofs.«173381_j58901181497818_2_alg».proof.Proof.RefLayers
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2.2.2) (Cert.ReferenceIdeal.Value.run (F := Ideal) m ρ)

/-- The kernel's four results (the generated frame run, its blocks read as the field of GrnSpec, the host's slices) and
    the reference's (its generated run, read layer by layer) are the same four functions of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, _, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  obtain ⟨r0, r1, r2, r3, rest⟩ := h c
  refine ⟨?_, ?_, ?_, ?_, rest⟩
  · rw [r0, Cert.ReferenceIdeal.Read.val_main_v75_eq, Cert.ReferenceIdeal.Layers.result0, a0, a1, a2, a3, a4, a5, a6, a7, a8, a9]
  · refine r1.trans ((Cert.ReferenceIdeal.Read.val_main_v85_eq _ _).trans ((Cert.ReferenceIdeal.Layers.result1 _ _).trans ?_))
    rw [a0, a1]
  · rw [r2, Cert.ReferenceIdeal.Read.val_main_v86_eq, Cert.ReferenceIdeal.Layers.result2, a0, a1, a2, a3, a4, a5, a6, a7, a8, a9]
  · refine r3.trans ((Cert.ReferenceIdeal.Read.val_main_v87_eq _ _).trans ((Cert.ReferenceIdeal.Layers.result3 _ _).trans ?_))
    rw [a0, a1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
